-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S384x128 : Shape := ⟨2, ![384, 128]⟩
abbrev S384x32 : Shape := ⟨2, ![384, 32]⟩
abbrev S_ : Shape := ⟨0, ![]⟩

class Facts : Prop where
  bcast_S_S384x128 : S_.BroadcastsInDim S384x128 (![] : Fin 0 → Fin S384x128.rank)
  reducesTo_S384x128_S_d0_1 : S384x128.ReducesTo [0, 1] S_
  h_S_ : 0 < S_.numel
  bcast_S_S384x32 : S_.BroadcastsInDim S384x32 (![] : Fin 0 → Fin S384x32.rank)
  reducesTo_S384x32_S_d0_1 : S384x32.ReducesTo [0, 1] S_

variable [Facts]

def fn {F : FTy → Type} [FloatOps F] (main_arg0 : FVec F S384x128 .f32) (main_arg1 : FVec F S384x32 .f32) : IVec S_ 1 :=
  let main_v0 : FVec F S384x128 .f32 := Host.absf main_arg0
  let main_cst : FVec F S_ .f32 := constant S_ .f32 0x7F800000#32
  let main_v1 : FVec F S384x128 .f32 := broadcastInDim S384x128 ![] bcast_S_S384x128 main_cst
  let main_v2 : IVec S384x128 1 := cmpf .olt main_v0 main_v1
  let main_c : IVec S_ 1 := constantI S_ 1 1#1
  let main_v3 : IVec S_ 1 := (fun x v => Host.reduce IntOp.andi x v reducesTo_S384x128_S_d0_1 h_S_) main_v2 main_c
  let main_v4 : FVec F S384x32 .f32 := Host.absf main_arg1
  let main_cst_0 : FVec F S_ .f32 := constant S_ .f32 0x7F800000#32
  let main_v5 : FVec F S384x32 .f32 := broadcastInDim S384x32 ![] bcast_S_S384x32 main_cst_0
  let main_v6 : IVec S384x32 1 := cmpf .olt main_v4 main_v5
  let main_c_1 : IVec S_ 1 := constantI S_ 1 1#1
  let main_v7 : IVec S_ 1 := (fun x v => Host.reduce IntOp.andi x v reducesTo_S384x32_S_d0_1 h_S_) main_v6 main_c_1
  let main_v8 : IVec S_ 1 := andi main_v3 main_v7
  main_v8
-- ==== Kernel.lean ====
abbrev S384x128 : Shape := ⟨2, ![384, 128]⟩
abbrev S384x32 : Shape := ⟨2, ![384, 32]⟩
abbrev S16x128 : Shape := ⟨2, ![16, 128]⟩
abbrev S24x128 : Shape := ⟨2, ![24, 128]⟩
abbrev S24x32 : Shape := ⟨2, ![24, 32]⟩
abbrev S8x128 : Shape := ⟨2, ![8, 128]⟩
abbrev S24 : Shape := ⟨1, ![24]⟩
abbrev S24x1 : Shape := ⟨2, ![24, 1]⟩
abbrev S384 : Shape := ⟨1, ![384]⟩
abbrev S384x1 : Shape := ⟨2, ![384, 1]⟩
abbrev S1x384 : Shape := ⟨2, ![1, 384]⟩
abbrev S128x384 : Shape := ⟨2, ![128, 384]⟩
abbrev S24x384 : Shape := ⟨2, ![24, 384]⟩
abbrev S24x1x128 : Shape := ⟨3, ![24, 1, 128]⟩
abbrev S24x384x1 : Shape := ⟨3, ![24, 384, 1]⟩
abbrev S24x384x128 : Shape := ⟨3, ![24, 384, 128]⟩
abbrev S32x384 : Shape := ⟨2, ![32, 384]⟩
abbrev S1 : Shape := ⟨1, ![1]⟩
abbrev S1x1 : Shape := ⟨2, ![1, 1]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S384x128, .f32⟩
  | .hbm, ⟨1, _⟩ => ⟨S384x32, .f32⟩
  | .hbm, ⟨2, _⟩ => ⟨S16x128, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S24x128, .f32⟩
  | .local _ .vmem, ⟨1, _⟩ => ⟨S24x128, .f32⟩
  | .local _ .vmem, ⟨2, _⟩ => ⟨S384x128, .f32⟩
  | .local _ .vmem, ⟨3, _⟩ => ⟨S24x32, .f32⟩
  | .local _ .vmem, ⟨4, _⟩ => ⟨S24x32, .f32⟩
  | .local _ .vmem, ⟨5, _⟩ => ⟨S384x32, .f32⟩
  | .local _ .vmem, ⟨6, _⟩ => ⟨S8x128, .f32⟩
  | .local _ .vmem, ⟨7, _⟩ => ⟨S8x128, .f32⟩
  | _, _ => ⟨S384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S24x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S24x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S384x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S8x128_S8x128_0_0 : ∀ a, (![0, 0] : Fin 2 → Nat) a + S8x128.size a ≤ S8x128.size a
  h_S8x128 : 0 < S8x128.numel
  inb_S24x128_S24x128_0_0 : ∀ a, (![0, 0] : Fin 2 → Nat) a + S24x128.size a ≤ S24x128.size a
  h_S24x128 : 0 < S24x128.numel
  inb_S384x128_S384x128_0_0 : ∀ a, (![0, 0] : Fin 2 → Nat) a + S384x128.size a ≤ S384x128.size a
  h_S384x128 : 0 < S384x128.numel
  reduces_S24x128_S24 : S24x128.Reduces [1] S24
  shapeCasts_S24_S24x1 : S24.ShapeCasts S24x1
  reduces_S384x128_S384 : S384x128.Reduces [1] S384
  shapeCasts_S384_S384x1 : S384.ShapeCasts S384x1
  shapeCasts_S384x1_S1x384 : S384x1.ShapeCasts S1x384
  transposes_S384x128_p1_0_S128x384 : S384x128.Transposes [1, 0] S128x384
  broadcasts_S24x1_S24x384 : S24x1.Broadcasts S24x384
  broadcasts_S1x384_S24x384 : S1x384.Broadcasts S24x384
  slices_S24x384_o0_0_S24x128 : S24x384.Slices ![0, 0] S24x128
  shapeCasts_S24x128_S24x1x128 : S24x128.ShapeCasts S24x1x128
  shapeCasts_S24x384_S24x384x1 : S24x384.ShapeCasts S24x384x1
  broadcasts_S24x1x128_S24x384x128 : S24x1x128.Broadcasts S24x384x128
  broadcasts_S24x384x1_S24x384x128 : S24x384x1.Broadcasts S24x384x128
  reduces_S24x384x128_S24x384 : S24x384x128.Reduces [2] S24x384
  slices_S24x384_o0_128_S24x128 : S24x384.Slices ![0, 128] S24x128
  slices_S24x384_o0_256_S24x128 : S24x384.Slices ![0, 256] S24x128
  inb_S24x32_S24x32_0_0 : ∀ a, (![0, 0] : Fin 2 → Nat) a + S24x32.size a ≤ S24x32.size a
  h_S24x32 : 0 < S24x32.numel
  inb_S384x32_S384x32_0_0 : ∀ a, (![0, 0] : Fin 2 → Nat) a + S384x32.size a ≤ S384x32.size a
  h_S384x32 : 0 < S384x32.numel
  reduces_S24x32_S24 : S24x32.Reduces [1] S24
  reduces_S384x32_S384 : S384x32.Reduces [1] S384
  transposes_S384x32_p1_0_S32x384 : S384x32.Transposes [1, 0] S32x384
  reduces_S24x384_S24 : S24x384.Reduces [1] S24
  reduces_S24x1_S1 : S24x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  shapeCasts_S8x128_S8x128 : S8x128.ShapeCasts S8x128
  slices_S16x128_S1x1_0_0 : S16x128.Slices ![0, 0] S1x1
  shapeCasts_S1x1_S_ : S1x1.ShapeCasts S_
  slices_S16x128_S1x1_8_0 : S16x128.Slices ![8, 0] S1x1
  dot_S24x128_S128x384_S24x384_1_0_0_1_n_n_wf : DotDims.WF S24x128 S128x384 S24x384 [1] [0] [0] [1] [] []
  dot_S24x32_S32x384_S24x384_1_0_0_1_n_n_wf : DotDims.WF S24x32 S32x384 S24x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S24x128.size a ≤ S384x128.size a
  hwx0_0 : ∀ i : grid0.Coords, EltTy.bits .f32 = 32 ∨ (Rect.block (s := S384x128) S24x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S24x32.size a ≤ S384x32.size a
  hwx0_2 : ∀ i : grid0.Coords, EltTy.bits .f32 = 32 ∨ (Rect.block (s := S384x32) S24x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x32.size a ≤ S384x32.size a
  hwx0_3 : ∀ i : grid0.Coords, EltTy.bits .f32 = 32 ∨ (Rect.block (s := S384x32) S384x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

def dot_S24x128_S128x384_S24x384_1_0_0_1_n_n : DotDims S24x128 S128x384 S24x384 where
  lhsContracting := [1]
  rhsContracting := [0]
  lhsNonContracting := [0]
  rhsNonContracting := [1]
  lhsBatch := []
  rhsBatch := []
  wf := dot_S24x128_S128x384_S24x384_1_0_0_1_n_n_wf
def dot_S24x32_S32x384_S24x384_1_0_0_1_n_n : DotDims S24x32 S32x384 S24x384 where
  lhsContracting := [1]
  rhsContracting := [0]
  lhsNonContracting := [0]
  rhsNonContracting := [1]
  lhsBatch := []
  rhsBatch := []
  wf := dot_S24x32_S32x384_S24x384_1_0_0_1_n_n_wf

abbrev win0_0 : Pipeline.Window sig grid0 :=
  Pipeline.Window.ofSpec (Memref.whole main_arg0) S24x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S24x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S384x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S384x128 : Shape := ⟨2, ![384, 128]⟩
abbrev S384x32 : Shape := ⟨2, ![384, 32]⟩
abbrev S_ : Shape := ⟨0, ![]⟩
abbrev S384 : Shape := ⟨1, ![384]⟩
abbrev S384x1 : Shape := ⟨2, ![384, 1]⟩
abbrev S1x384 : Shape := ⟨2, ![1, 384]⟩
abbrev S384x384 : Shape := ⟨2, ![384, 384]⟩
abbrev S128x384 : Shape := ⟨2, ![128, 384]⟩
abbrev S32x384 : Shape := ⟨2, ![32, 384]⟩
abbrev S384x1x384 : Shape := ⟨3, ![384, 1, 384]⟩
abbrev S384x384x1 : Shape := ⟨3, ![384, 384, 1]⟩
abbrev S384x384x384 : Shape := ⟨3, ![384, 384, 384]⟩

abbrev nBuf : Space → Nat
  | .hbm => 136
  | .vmem => 0
  | .smem => 0
  | _ => 0

abbrev hbmTy0_0 (i : Nat) : BufTy := match i % 128 with
  | 0 => ⟨S384x128, .f32⟩
  | 1 => ⟨S384x32, .f32⟩
  | 2 => ⟨S384x128, .f32⟩
  | 3 => ⟨S_, .f32⟩
  | 4 => ⟨S384, .f32⟩
  | 5 => ⟨S384x1, .f32⟩
  | 6 => ⟨S384x128, .f32⟩
  | 7 => ⟨S_, .f32⟩
  | 8 => ⟨S384, .f32⟩
  | 9 => ⟨S1x384, .f32⟩
  | 10 => ⟨S384x384, .f32⟩
  | 11 => ⟨S384x384, .f32⟩
  | 12 => ⟨S384x384, .f32⟩
  | 13 => ⟨S128x384, .f32⟩
  | 14 => ⟨S384x384, .f32⟩
  | 15 => ⟨S_, .f32⟩
  | 16 => ⟨S384x384, .f32⟩
  | 17 => ⟨S384x384, .f32⟩
  | 18 => ⟨S384x384, .f32⟩
  | 19 => ⟨S_, .f32⟩
  | 20 => ⟨S384x384, .f32⟩
  | 21 => ⟨S384x384, .f32⟩
  | 22 => ⟨S_, .f32⟩
  | 23 => ⟨S384x384, .f32⟩
  | 24 => ⟨S384x384, .i1⟩
  | 25 => ⟨S_, .f32⟩
  | 26 => ⟨S_, .f32⟩
  | 27 => ⟨S384x384, .f32⟩
  | 28 => ⟨S384x384, .f32⟩
  | 29 => ⟨S384x384, .f32⟩
  | 30 => ⟨S_, .f32⟩
  | 31 => ⟨S_, .f32⟩
  | 32 => ⟨S384x384, .f32⟩
  | 33 => ⟨S384x384, .f32⟩
  | 34 => ⟨S384x32, .f32⟩
  | 35 => ⟨S_, .f32⟩
  | 36 => ⟨S384, .f32⟩
  | 37 => ⟨S384x1, .f32⟩
  | 38 => ⟨S384x32, .f32⟩
  | 39 => ⟨S_, .f32⟩
  | 40 => ⟨S384, .f32⟩
  | 41 => ⟨S1x384, .f32⟩
  | 42 => ⟨S384x384, .f32⟩
  | 43 => ⟨S384x384, .f32⟩
  | 44 => ⟨S384x384, .f32⟩
  | 45 => ⟨S32x384, .f32⟩
  | 46 => ⟨S384x384, .f32⟩
  | 47 => ⟨S_, .f32⟩
  | 48 => ⟨S384x384, .f32⟩
  | 49 => ⟨S384x384, .f32⟩
  | 50 => ⟨S384x384, .f32⟩
  | 51 => ⟨S_, .f32⟩
  | 52 => ⟨S384x384, .f32⟩
  | 53 => ⟨S384x384, .f32⟩
  | 54 => ⟨S_, .f32⟩
  | 55 => ⟨S384x384, .f32⟩
  | 56 => ⟨S384x384, .i1⟩
  | 57 => ⟨S_, .f32⟩
  | 58 => ⟨S_, .f32⟩
  | 59 => ⟨S384x384, .f32⟩
  | 60 => ⟨S384x384, .f32⟩
  | 61 => ⟨S384x384, .f32⟩
  | 62 => ⟨S_, .f32⟩
  | 63 => ⟨S_, .f32⟩
  | 64 => ⟨S384x384, .f32⟩
  | 65 => ⟨S384x384, .f32⟩
  | 66 => ⟨S384x1x384, .f32⟩
  | 67 => ⟨S384x384x1, .f32⟩
  | 68 => ⟨S384x384x384, .f32⟩
  | 69 => ⟨S384x384x384, .f32⟩
  | 70 => ⟨S384x384x384, .f32⟩
  | 71 => ⟨S_, .f32⟩
  | 72 => ⟨S384x384x384, .f32⟩
  | 73 => ⟨S384x384x384, .f32⟩
  | 74 => ⟨S384x384x384, .f32⟩
  | 75 => ⟨S384x384x384, .f32⟩
  | 76 => ⟨S_, .f32⟩
  | 77 => ⟨S384x384x384, .f32⟩
  | 78 => ⟨S384x384x384, .f32⟩
  | 79 => ⟨S_, .f32⟩
  | 80 => ⟨S384x384x384, .f32⟩
  | 81 => ⟨S384x384x384, .f32⟩
  | 82 => ⟨S_, .f32⟩
  | 83 => ⟨S384x384, .f32⟩
  | 84 => ⟨S_, .f32⟩
  | 85 => ⟨S384x384, .f32⟩
  | 86 => ⟨S384x384, .f32⟩
  | 87 => ⟨S_, .f32⟩
  | 88 => ⟨S384x384, .f32⟩
  | 89 => ⟨S384x384, .f32⟩
  | 90 => ⟨S_, .f32⟩
  | 91 => ⟨S384x384, .f32⟩
  | 92 => ⟨S384x384, .f32⟩
  | 93 => ⟨S384x1x384, .f32⟩
  | 94 => ⟨S384x384x1, .f32⟩
  | 95 => ⟨S384x384x384, .f32⟩
  | 96 => ⟨S384x384x384, .f32⟩
  | 97 => ⟨S384x384x384, .f32⟩
  | 98 => ⟨S_, .f32⟩
  | 99 => ⟨S384x384x384, .f32⟩
  | 100 => ⟨S384x384x384, .f32⟩
  | 101 => ⟨S384x384x384, .f32⟩
  | 102 => ⟨S384x384x384, .f32⟩
  | 103 => ⟨S_, .f32⟩
  | 104 => ⟨S384x384x384, .f32⟩
  | 105 => ⟨S384x384x384, .f32⟩
  | 106 => ⟨S_, .f32⟩
  | 107 => ⟨S384x384x384, .f32⟩
  | 108 => ⟨S384x384x384, .f32⟩
  | 109 => ⟨S_, .f32⟩
  | 110 => ⟨S384x384, .f32⟩
  | 111 => ⟨S_, .f32⟩
  | 112 => ⟨S384x384, .f32⟩
  | 113 => ⟨S384x384, .f32⟩
  | 114 => ⟨S_, .f32⟩
  | 115 => ⟨S384x384, .f32⟩
  | 116 => ⟨S384x384, .f32⟩
  | 117 => ⟨S_, .f32⟩
  | 118 => ⟨S384x384, .f32⟩
  | 119 => ⟨S384x384, .f32⟩
  | 120 => ⟨S_, .f32⟩
  | 121 => ⟨S_, .f32⟩
  | 122 => ⟨S_, .f32⟩
  | 123 => ⟨S384x384, .f32⟩
  | 124 => ⟨S384x384, .f32⟩
  | 125 => ⟨S_, .f32⟩
  | 126 => ⟨S384x384, .f32⟩
  | 127 => ⟨S384x384, .f32⟩
  | _ => ⟨S384x128, .f32⟩

abbrev hbmTy0_1 (i : Nat) : BufTy := match i % 128 with
  | 0 => ⟨S_, .f32⟩
  | 1 => ⟨S384x384, .f32⟩
  | 2 => ⟨S384x384, .f32⟩
  | 3 => ⟨S384x384, .f32⟩
  | 4 => ⟨S_, .f32⟩
  | 5 => ⟨S_, .f32⟩
  | 6 => ⟨S_, .f32⟩
  | 7 => ⟨S_, .f32⟩
  | _ => ⟨S384x128, .f32⟩

abbrev hbmTy (i : Nat) : BufTy := match i / 128 with
  | 0 => hbmTy0_0 i
  | 1 => hbmTy0_1 i
  | _ => ⟨S384x128, .f32⟩

abbrev bufTy : (tb : Table) → Fin (tcTables nBuf tb) → BufTy
  | .hbm, ⟨i, _⟩ => hbmTy i
  | _, _ => ⟨S384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_call2_v0 : Ref sig .tc := ⟨.hbm, 58, rfl⟩
abbrev main_call2_v1 : Ref sig .tc := ⟨.hbm, 59, rfl⟩
abbrev main_v39 : Ref sig .tc := ⟨.hbm, 60, rfl⟩
abbrev main_v40 : Ref sig .tc := ⟨.hbm, 61, rfl⟩
abbrev main_cst_12 : Ref sig .tc := ⟨.hbm, 62, rfl⟩
abbrev main_call3_v0 : Ref sig .tc := ⟨.hbm, 63, rfl⟩
abbrev main_call3_v1 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_13 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_14 : Ref sig .tc := ⟨.hbm, 76, rfl⟩
abbrev main_v51 : Ref sig .tc := ⟨.hbm, 77, rfl⟩
abbrev main_v52 : Ref sig .tc := ⟨.hbm, 78, rfl⟩
abbrev main_cst_15 : Ref sig .tc := ⟨.hbm, 79, rfl⟩
abbrev main_v53 : Ref sig .tc := ⟨.hbm, 80, rfl⟩
abbrev main_v54 : Ref sig .tc := ⟨.hbm, 81, rfl⟩
abbrev main_cst_16 : Ref sig .tc := ⟨.hbm, 82, rfl⟩
abbrev main_v55 : Ref sig .tc := ⟨.hbm, 83, rfl⟩
abbrev main_cst_17 : Ref sig .tc := ⟨.hbm, 84, rfl⟩
abbrev main_v56 : Ref sig .tc := ⟨.hbm, 85, rfl⟩
abbrev main_v57 : Ref sig .tc := ⟨.hbm, 86, rfl⟩
abbrev main_cst_18 : Ref sig .tc := ⟨.hbm, 87, rfl⟩
abbrev main_v58 : Ref sig .tc := ⟨.hbm, 88, rfl⟩
abbrev main_v59 : Ref sig .tc := ⟨.hbm, 89, rfl⟩
abbrev main_call4_cst : Ref sig .tc := ⟨.hbm, 90, rfl⟩
abbrev main_call4_v0 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_19 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_20 : Ref sig .tc := ⟨.hbm, 103, rfl⟩
abbrev main_v70 : Ref sig .tc := ⟨.hbm, 104, rfl⟩
abbrev main_v71 : Ref sig .tc := ⟨.hbm, 105, rfl⟩
abbrev main_cst_21 : Ref sig .tc := ⟨.hbm, 106, rfl⟩
abbrev main_v72 : Ref sig .tc := ⟨.hbm, 107, rfl⟩
abbrev main_v73 : Ref sig .tc := ⟨.hbm, 108, rfl⟩
abbrev main_cst_22 : Ref sig .tc := ⟨.hbm, 109, rfl⟩
abbrev main_v74 : Ref sig .tc := ⟨.hbm, 110, rfl⟩
abbrev main_cst_23 : Ref sig .tc := ⟨.hbm, 111, rfl⟩
abbrev main_v75 : Ref sig .tc := ⟨.hbm, 112, rfl⟩
abbrev main_v76 : Ref sig .tc := ⟨.hbm, 113, rfl⟩
abbrev main_cst_24 : Ref sig .tc := ⟨.hbm, 114, rfl⟩
abbrev main_v77 : Ref sig .tc := ⟨.hbm, 115, rfl⟩
abbrev main_v78 : Ref sig .tc := ⟨.hbm, 116, rfl⟩
abbrev main_cst_25 : Ref sig .tc := ⟨.hbm, 117, rfl⟩
abbrev main_v79 : Ref sig .tc := ⟨.hbm, 118, rfl⟩
abbrev main_v80 : Ref sig .tc := ⟨.hbm, 119, rfl⟩
abbrev main_cst_26 : Ref sig .tc := ⟨.hbm, 120, rfl⟩
abbrev main_cst_27 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_v81 : Ref sig .tc := ⟨.hbm, 127, rfl⟩
abbrev main_cst_28 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_29 : Ref sig .tc := ⟨.hbm, 132, rfl⟩
abbrev main_v85 : Ref sig .tc := ⟨.hbm, 133, rfl⟩
abbrev main_cst_30 : Ref sig .tc := ⟨.hbm, 134, rfl⟩
abbrev main_v86 : Ref sig .tc := ⟨.hbm, 135, rfl⟩

abbrev nD : Nat := 1
abbrev τ : Topo := Topo.v7x

variable {F : FTy → Type} [FloatOps F]

class Facts₀ : Prop where
  reducesTo_S384x128_S384_d1 : S384x128.ReducesTo [1] S384
  h_S_ : 0 < S_.numel
  bcast_S384_S384x1_0 : S384.BroadcastsInDim S384x1 (![0] : Fin 1 → Fin S384x1.rank)
  bcast_S384_S1x384_1 : S384.BroadcastsInDim S1x384 (![1] : Fin 1 → Fin S1x384.rank)
  bcast_S384x1_S384x384_0_1 : S384x1.BroadcastsInDim S384x384 (![0, 1] : Fin 2 → Fin S384x384.rank)
  bcast_S1x384_S384x384_0_1 : S1x384.BroadcastsInDim S384x384 (![0, 1] : Fin 2 → Fin S384x384.rank)
  transposes_S384x128_S128x384_1_0 : S384x128.Transposes [1, 0] S128x384
  bcast_S_S384x384 : S_.BroadcastsInDim S384x384 (![] : Fin 0 → Fin S384x384.rank)
  reducesTo_S384x32_S384_d1 : S384x32.ReducesTo [1] S384
  transposes_S384x32_S32x384_1_0 : S384x32.Transposes [1, 0] S32x384
  bcast_S384x384_S384x1x384_0_2 : S384x384.BroadcastsInDim S384x1x384 (![0, 2] : Fin 2 → Fin S384x1x384.rank)
  bcast_S384x384_S384x384x1_0_1 : S384x384.BroadcastsInDim S384x384x1 (![0, 1] : Fin 2 → Fin S384x384x1.rank)
  bcast_S384x1x384_S384x384x384_0_1_2 : S384x1x384.BroadcastsInDim S384x384x384 (![0, 1, 2] : Fin 3 → Fin S384x384x384.rank)
  bcast_S384x384x1_S384x384x384_0_1_2 : S384x384x1.BroadcastsInDim S384x384x384 (![0, 1, 2] : Fin 3 → Fin S384x384x384.rank)
  bcast_S_S384x384x384 : S_.BroadcastsInDim S384x384x384 (![] : Fin 0 → Fin S384x384x384.rank)
  reducesTo_S384x384x384_S384x384_d2 : S384x384x384.ReducesTo [2] S384x384
  reducesTo_S384x384_S_d0_1 : S384x384.ReducesTo [0, 1] S_
  dot_S384x128_S128x384_S384x384_1_0_0_1_n_n_wf : DotDims.WF S384x128 S128x384 S384x384 [1] [0] [0] [1] [] []
  dot_S384x32_S32x384_S384x384_1_0_0_1_n_n_wf : DotDims.WF S384x32 S32x384 S384x384 [1] [0] [0] [1] [] []

variable [Facts₀]

def dot_S384x128_S128x384_S384x384_1_0_0_1_n_n : DotDims S384x128 S128x384 S384x384 where
  lhsContracting := [1]
  rhsContracting := [0]
  lhsNonContracting := [0]
  rhsNonContracting := [1]
  lhsBatch := []
  rhsBatch := []
  wf := dot_S384x128_S128x384_S384x384_1_0_0_1_n_n_wf
def dot_S384x32_S32x384_S384x384_1_0_0_1_n_n : DotDims S384x32 S32x384 S384x384 where
  lhsContracting := [1]
  rhsContracting := [0]
  lhsNonContracting := [0]
  rhsNonContracting := [1]
  lhsBatch := []
  rhsBatch := []
  wf := dot_S384x32_S32x384_S384x384_1_0_0_1_n_n_wf

class Facts : Prop extends Facts₀ where

variable [Facts]
-- ==== Proof.KBody.lean ====
/-
  The kernel body run once per control case. At a grid point whose second coordinate is zero the body first clears
  its 8×128 accumulator block and then adds the tile's contribution; at every other point it adds the contribution
  to what the block already holds. In both cases the four input buffers are only read. What the accumulator block
  ends with is recorded as the list of the body's stores.
-/
import proofs.«182194_j5634997093005_2_alg».proof.Proof.Gen.Kernel.Launch
import proofs.«182194_j5634997093005_2_alg».proof.Proof.Gen.Kernel.Skeleton
import proofs.«182194_j5634997093005_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body: the second grid coordinate is zero. -/
abbrev cond0 (i : grid0.Coords) : Prop := (Scalar.cmpi .ne (Scalar.extui (Scalar.cmpi .eq (BitVec.ofNat 32 (i 1).val) 0#32)) 0#32) = 1#1
/-- It holds exactly at the first point of each of the two rows of the grid. -/
theorem hcond0 : ∀ t : Fin cfg0.N, cond0 (grid0.coords t) ↔ t.val % 8 = 0 :=
  (by decide +kernel : ∀ t : Fin grid0.N, cond0 (grid0.coords t) ↔ t.val % 8 = 0)

set_option maxHeartbeats 1000000 in
/-- The clearing case: the accumulator block may hold anything on entry. -/
noncomputable def kernelRunA (c : Dev nD) (i : grid0.Coords) (arg2 : Memref sig .tc .vmem S24x128 .f32) (harg2 : arg2.IsWhole) (arg3 : Memref sig .tc .vmem S384x128 .f32) (harg3 : arg3.IsWhole)
    (arg4 : Memref sig .tc .vmem S24x32 .f32) (harg4 : arg4.IsWhole) (arg5 : Memref sig .tc .vmem S384x32 .f32) (harg5 : arg5.IsWhole)
    (arg6 : Memref sig .tc .vmem S8x128 .f32) (harg6 : arg6.IsWhole) (hc : cond0 i)
    (x0 : Vec F S24x128 .f32) (x1 : Vec F S384x128 .f32) (x2 : Vec F S24x32 .f32) (x3 : Vec F S384x32 .f32) :
    { L : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__trust_kernel i arg2 harg2 arg3 harg3 arg4 harg4 arg5 harg5 arg6 harg6) K } := by
  refine ⟨?_, fun E K => ?run⟩
  case run =>
    simp only [cc0__trust_kernel_eq_skeleton]; unfold cc0__trust_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0
    obtain rfl := harg3.eq_unread hf1
    obtain rfl := harg4.eq_unread hf2
    obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- The accumulating case: the accumulator block holds `xo` on entry. -/
noncomputable def kernelRunB (c : Dev nD) (i : grid0.Coords) (arg2 : Memref sig .tc .vmem S24x128 .f32) (harg2 : arg2.IsWhole) (arg3 : Memref sig .tc .vmem S384x128 .f32) (harg3 : arg3.IsWhole)
    (arg4 : Memref sig .tc .vmem S24x32 .f32) (harg4 : arg4.IsWhole) (arg5 : Memref sig .tc .vmem S384x32 .f32) (harg5 : arg5.IsWhole)
    (arg6 : Memref sig .tc .vmem S8x128 .f32) (harg6 : arg6.IsWhole) (hc : ¬cond0 i)
    (x0 : Vec F S24x128 .f32) (x1 : Vec F S384x128 .f32) (x2 : Vec F S24x32 .f32) (x3 : Vec F S384x32 .f32) (xo : Vec F S8x128 .f32) :
    { L : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__trust_kernel i arg2 harg2 arg3 harg3 arg4 harg4 arg5 harg5 arg6 harg6) K } := by
  refine ⟨?_, fun E K => ?run⟩
  case run =>
    simp only [cc0__trust_kernel_eq_skeleton]; unfold cc0__trust_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0
    obtain rfl := harg3.eq_unread hf1
    obtain rfl := harg4.eq_unread hf2
    obtain rfl := harg5.eq_unread hf3
    obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Frame

end
-- ==== Proof.KData.lean ====
/-
  The pipeline's proof data. The region is entered with every buffer as launched. Each of the four input windows
  holds, at every grid point, its block of the array behind it (a 24-row tile for windows 0 and 2, the whole array
  for windows 1 and 3, which are fetched once). The output window's 8×128 block is an accumulator: at a point whose
  second coordinate is zero it is cleared and then receives the tile's contribution, at the other points it receives
  the contribution on top of what the point before left; it is written back after the last point of each grid row.
  Windows 0, 1 read one array and windows 2, 3 another: each pair holds its array at one half share each.
-/
import proofs.«182194_j5634997093005_2_alg».proof.Proof.KBody

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched (the region is @main's first line). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- One staging buffer of the output window, through which its contents are stated. -/
abbrev VO : View sig .tc .vmem S8x128 .f32 := (Memref.whole cc0_stg4_0 : Memref sig .tc .vmem S8x128 .f32).view
abbrev ms0 (t : Fin cfg0.N) : Memref sig .tc .vmem S24x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S384x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S24x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S384x32 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x128 .f32 := win0_4.stage (cfg0.slots t 4)
abbrev hs4 (t : Fin cfg0.N) : (ms4 t).IsWhole := hstage0_4 ((cfg0.slots t 4).cast nbuf0_4)

/-- The clearing case's stores tile the accumulator block, so they cover it. -/
theorem coverA (c : Dev nD) (i : grid0.Coords) (arg2 : Memref sig .tc .vmem S24x128 .f32) (harg2 : arg2.IsWhole) (arg3 : Memref sig .tc .vmem S384x128 .f32) (harg3 : arg3.IsWhole)
    (arg4 : Memref sig .tc .vmem S24x32 .f32) (harg4 : arg4.IsWhole) (arg5 : Memref sig .tc .vmem S384x32 .f32) (harg5 : arg5.IsWhole)
    (arg6 : Memref sig .tc .vmem S8x128 .f32) (harg6 : arg6.IsWhole) (hc : cond0 i)
    (x0 : Vec F S24x128 .f32) (x1 : Vec F S384x128 .f32) (x2 : Vec F S24x32 .f32) (x3 : Vec F S384x32 .f32) (y : S8x128.Idx) :
    ∃ pc ∈ (kernelRunA c i arg2 harg2 arg3 harg3 arg4 harg4 arg5 harg5 arg6 harg6 hc x0 x1 x2 x3).1, y ∈ pc.1.set :=
  View.cover_of_tiledL (kernelRunA c i arg2 harg2 arg3 harg3 arg4 harg4 arg5 harg5 arg6 harg6 hc x0 x1 x2 x3).1 S8x128.size (by sl_kernel_rfl) y

/-- What the clearing case leaves in the accumulator block. -/
def outA (c : Dev nD) (i : grid0.Coords) (arg2 : Memref sig .tc .vmem S24x128 .f32) (harg2 : arg2.IsWhole) (arg3 : Memref sig .tc .vmem S384x128 .f32) (harg3 : arg3.IsWhole)
    (arg4 : Memref sig .tc .vmem S24x32 .f32) (harg4 : arg4.IsWhole) (arg5 : Memref sig .tc .vmem S384x32 .f32) (harg5 : arg5.IsWhole)
    (arg6 : Memref sig .tc .vmem S8x128 .f32) (harg6 : arg6.IsWhole) (hc : cond0 i)
    (x0 : Vec F S24x128 .f32) (x1 : Vec F S384x128 .f32) (x2 : Vec F S24x32 .f32) (x3 : Vec F S384x32 .f32) : Vec F S8x128 .f32 :=
  VO.read (Elt F) (VO.writes (Elt F) VO.junk (kernelRunA c i arg2 harg2 arg3 harg3 arg4 harg4 arg5 harg5 arg6 harg6 hc x0 x1 x2 x3).1)

/-- The accumulating case's store covers the accumulator block. -/
theorem coverB (c : Dev nD) (i : grid0.Coords) (arg2 : Memref sig .tc .vmem S24x128 .f32) (harg2 : arg2.IsWhole) (arg3 : Memref sig .tc .vmem S384x128 .f32) (harg3 : arg3.IsWhole)
    (arg4 : Memref sig .tc .vmem S24x32 .f32) (harg4 : arg4.IsWhole) (arg5 : Memref sig .tc .vmem S384x32 .f32) (harg5 : arg5.IsWhole)
    (arg6 : Memref sig .tc .vmem S8x128 .f32) (harg6 : arg6.IsWhole) (hc : ¬cond0 i)
    (x0 : Vec F S24x128 .f32) (x1 : Vec F S384x128 .f32) (x2 : Vec F S24x32 .f32) (x3 : Vec F S384x32 .f32) (xo : Vec F S8x128 .f32) (y : S8x128.Idx) :
    ∃ pc ∈ (kernelRunB c i arg2 harg2 arg3 harg3 arg4 harg4 arg5 harg5 arg6 harg6 hc x0 x1 x2 x3 xo).1, y ∈ pc.1.set :=
  View.cover_of_tiledL (kernelRunB c i arg2 harg2 arg3 harg3 arg4 harg4 arg5 harg5 arg6 harg6 hc x0 x1 x2 x3 xo).1 S8x128.size (by sl_kernel_rfl) y

/-- What the accumulating case leaves in the accumulator block, from what it found there. -/
def outB (c : Dev nD) (i : grid0.Coords) (arg2 : Memref sig .tc .vmem S24x128 .f32) (harg2 : arg2.IsWhole) (arg3 : Memref sig .tc .vmem S384x128 .f32) (harg3 : arg3.IsWhole)
    (arg4 : Memref sig .tc .vmem S24x32 .f32) (harg4 : arg4.IsWhole) (arg5 : Memref sig .tc .vmem S384x32 .f32) (harg5 : arg5.IsWhole)
    (arg6 : Memref sig .tc .vmem S8x128 .f32) (harg6 : arg6.IsWhole) (hc : ¬cond0 i)
    (x0 : Vec F S24x128 .f32) (x1 : Vec F S384x128 .f32) (x2 : Vec F S24x32 .f32) (x3 : Vec F S384x32 .f32) (xo : Vec F S8x128 .f32) : Vec F S8x128 .f32 :=
  VO.read (Elt F) (VO.writes (Elt F) VO.junk (kernelRunB c i arg2 harg2 arg3 harg3 arg4 harg4 arg5 harg5 arg6 harg6 hc x0 x1 x2 x3 xo).1)

/-- THE ACCUMULATION: what the accumulator block holds after the body at position `n` of the grid. -/
def outsAt (c : Dev nD) : (n : ℕ) → n < cfg0.N → Vec F S8x128 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩)
      ((hcond0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 8 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        ((hcond0 ⟨n + 1, hn⟩).mpr h0) (iblk m c 0 ⟨n + 1, hn⟩) (iblk m c 1 ⟨n + 1, hn⟩) (iblk m c 2 ⟨n + 1, hn⟩) (iblk m c 3 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        (fun h => h0 ((hcond0 ⟨n + 1, hn⟩).mp h)) (iblk m c 0 ⟨n + 1, hn⟩) (iblk m c 1 ⟨n + 1, hn⟩) (iblk m c 2 ⟨n + 1, hn⟩) (iblk m c 3 ⟨n + 1, hn⟩)
        (outsAt c n (Nat.lt_of_succ_lt hn))

/-- At a clearing point. -/
theorem outsAt_A (c : Dev nD) (t : Fin cfg0.N) (h0 : t.val % 8 = 0) :
    outsAt m c t.val t.isLt = outA c (grid0.coords t) (ms0 t) (hs0 t) (ms1 t) (hs1 t) (ms2 t) (hs2 t) (ms3 t) (hs3 t) (ms4 t) (hs4 t)
      ((hcond0 t).mpr h0) (iblk m c 0 t) (iblk m c 1 t) (iblk m c 2 t) (iblk m c 3 t) := by
  obtain ⟨n, hn⟩ := t
  cases n with
  | zero => exact rfl
  | succ n => exact (dif_pos h0).trans rfl

/-- At an accumulating point: over what the point before left. -/
theorem outsAt_B (c : Dev nD) (t : Fin cfg0.N) (h0 : ¬t.val % 8 = 0) :
    outsAt m c t.val t.isLt = outB c (grid0.coords t) (ms0 t) (hs0 t) (ms1 t) (hs1 t) (ms2 t) (hs2 t) (ms3 t) (hs3 t) (ms4 t) (hs4 t)
      (fun h => h0 ((hcond0 t).mp h)) (iblk m c 0 t) (iblk m c 1 t) (iblk m c 2 t) (iblk m c 3 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t.val t.isLt
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outsAt m c t.val t.isLt := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-- At an accumulating point the accumulator block holds what the body left at the point before: the point is not
    the first and the block was not written back in between. -/
theorem before4_B (c : Dev nD) (t : Fin cfg0.N) (h0 : ¬t.val % 8 = 0) (d) :
    (dats m 0 c).before 4 t d = outsAt m c (t.val - 1) (Nat.lt_of_le_of_lt (Nat.sub_le _ _) t.isLt) := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point: the inputs' buffers hold their blocks; the point's second coordinate says which case it
    is in; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  have hN : t.val < 16 := lt_of_lt_of_eq t.isLt (show cfg0.N = 16 from N_0)
  by_cases h0 : t.val % 8 = 0
  · rw [outsAt_A m c t h0]
    unfold outA
    iintro ⟨HΦ, Ho, ⟨%d0, H0⟩, ⟨%d1, H1⟩, ⟨%d2, H2⟩, ⟨%d3, H3⟩, ⟨%d4, H4⟩⟩
    iapply ((kernelRunA c (grid0.coords t) _ _ _ _ _ _ _ _ _ _ ((hcond0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverA c _ _ _ _ _ _ _ _ _ _ _ _ _ _ _ _)
  · rw [outsAt_B m c t h0]
    simp only [before4_B m c t h0]
    unfold outB
    iintro ⟨HΦ, Ho, ⟨%d0, H0⟩, ⟨%d1, H1⟩, ⟨%d2, H2⟩, ⟨%d3, H3⟩, ⟨%d4, H4⟩⟩
    iapply ((kernelRunB c (grid0.coords t) _ _ _ _ _ _ _ _ _ _ (fun h => h0 ((hcond0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Frame

end
-- ==== Proof.KLaunch.lean ====
/-
  The launch. @main is the kernel region followed by seven host operations that read the region's result. The region
  is entered with the two argument arrays each dealt to the two windows that read it, one half share each, and the
  result array handed to the output window whole; after the last grid point the two halves of each argument array are
  joined again and the host operations run on every buffer outside the kernel's scope: the result array as the region
  left it, every other buffer as launched.
-/
import proofs.«182194_j5634997093005_2_alg».proof.Proof.KData
import Idealize.ShloMosaic.Lib.Pipeline.FrameSuffix

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main reduces to the region continued by the host operations, every buffer as launched at the region's entry. -/
theorem hmain : Pipeline.HMainK (Ix := Unit) (Name := ℕ) (U := UR sig nD τ) (Lvl := ℕ) cfgs 0 defs₀ Variants.none m (main (F := F))
    (V m) (fun _ => Pipeline.chain ([hostOps1 (F := F)].map StableHlo.seq)) :=
  Pipeline.hmain_around cfgs 0 defs₀ Variants.none m main [] [hostOps1] trivial trivial fun c => (main_chain c).trans rfl

/-- The pipeline's arrays, window by window: the two halves of each argument array and the whole result array. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare.left} G 2) ∗ (((c : Thread nD τ).loc main_arg1) ↦{fullShare.right} G 3)
          ∗ (((c : Thread nD τ).loc main_v0) ↦{fullShare} G 4)) := by
  unfold Dat.arrays
  rw [bigSep_W0, (arr_whole0 0).set_eq_univ, (arr_whole0 2).set_eq_univ, (arr_whole0 4).set_eq_univ]
  rfl

/-- The buffers behind the arrays, each whole, listed. -/
theorem arrBufs_chain (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0)) := by
  unfold Pipeline.arrBufs
  exact bigSep_eq_bigSepL_of_eq [main_arg0, main_arg1, main_v0] (by decide) (by decide) _

/-- At the region's entry each argument array is dealt to its two windows, half and half. -/
theorem hsplit (c : Dev nD) : (Pipeline.arrBufs spec0 c (V m c) : sProp 𝕄) ⊢ (dats m 0 c).arrays ((dats m 0 c).arrAt · 0) := by
  rw [arrBufs_chain, arrays_chain]
  iintro ⟨H0, H1, H2⟩
  ihave H0 := (pointsTo_share (PosShare.mem_left_op_right fullShare)).1 $$ H0
  icases H0 with ⟨H0l, H0r⟩
  ihave H1 := (pointsTo_share (PosShare.mem_left_op_right fullShare)).1 $$ H1
  icases H1 with ⟨H1l, H1r⟩
  isplitl [H0l]; · iexact H0l
  isplitl [H0r]; · iexact H0r
  isplitl [H1l]; · iexact H1l
  isplitl [H1r]; · iexact H1r
  iexact H2

/-- The result array after the last grid point. -/
abbrev outArr (c : Dev nD) : Buf (Elt F) ((c : Thread nD τ).loc main_v0) := (dats m 0 c).arrAt 4 cfg0.N

/-- Core `c`'s buffers when the region is left: the result array as the region wrote it, every other as launched. -/
def tailW (c : Dev nD) : Valuation τ sig (Elt F) :=
  Function.update (fun b : DevRef τ sig => m (c, b)) (Proc.devRef .tc main_v0) (outArr m c)

theorem tailW_v0 (c : Dev nD) : tailW m c (Proc.devRef .tc main_v0) = outArr m c := by
  unfold tailW; exact Function.update_self ..

theorem tailW_of_ne (c : Dev nD) (b : Ref sig .tc) (hb : b ≠ main_v0) : tailW m c (Proc.devRef .tc b) = m ((c : Thread nD τ).loc b) := by
  unfold tailW; exact Function.update_of_ne (StableHlo.devRef_ne_of_ne hb) ..

/-- The host operations write neither argument array nor the kernel's result array. -/
theorem not_written (b : Ref sig .tc) (hb : b ≠ main_v1 ∧ b ≠ main_v2 ∧ b ≠ main_v3 ∧ b ≠ main_v4 ∧ b ≠ main_v5 ∧ b ≠ main_cst ∧ b ≠ main_v6) :
    ∀ op ∈ (hostOps1 (F := F)), Proc.devRef .tc b ∉ op.writes := by
  obtain ⟨h1, h2, h3, h4, h5, h6, h7⟩ := hb
  intro op hop
  simp only [List.mem_cons, List.mem_nil_iff, or_false] at hop
  rcases hop with rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- The loss as the host operations leave it: the seven operations applied from the region's exit. -/
def result (c : Dev nD) : Buf (Elt F) ((c : Thread nD τ).loc main_v6) :=
  StableHlo.after hostOps1 (tailW m c) (Proc.devRef .tc main_v6)

/-- Every buffer outside the kernel's scope held at a valuation: the three arrays and the rest. -/
theorem held_eq (c : Dev nD) (Wv : Valuation τ sig (Elt F)) :
    (StableHlo.held (c : Thread nD τ) (Pipeline.ucRefs τ sig) Wv : sProp 𝕄)
      = iprop(((((c : Thread nD τ).loc main_arg0) ↦{fullShare} Wv (Proc.devRef .tc main_arg0)) ∗ (((c : Thread nD τ).loc main_arg1) ↦{fullShare} Wv (Proc.devRef .tc main_arg1))
          ∗ (((c : Thread nD τ).loc main_v0) ↦{fullShare} Wv (Proc.devRef .tc main_v0)))
        ∗ Pipeline.unscopedRest spec0 c (fun b => Wv (Proc.devRef .tc b))) := by
  rw [← Pipeline.unscopedBufs_held (Ix := Unit) (Name := ℕ) (U := UR sig nD τ) (Lvl := ℕ) c Wv,
    Pipeline.unscopedBufs_split₀ cfgs 0 winFacts₀0.arr_unscoped c, arrBufs_chain]

/-- The argument arrays end as launched: an input window's array is never written. -/
theorem arrAt_in0 (c : Dev nD) : (dats m 0 c).arrAt 0 cfg0.N = m ((c : Thread nD τ).loc main_arg0) := (dats m 0 c).arrAt_in 0 rfl _
theorem arrAt_in1 (c : Dev nD) : (dats m 0 c).arrAt 1 cfg0.N = m ((c : Thread nD τ).loc main_arg0) := (dats m 0 c).arrAt_in 1 rfl _
theorem arrAt_in2 (c : Dev nD) : (dats m 0 c).arrAt 2 cfg0.N = m ((c : Thread nD τ).loc main_arg1) := (dats m 0 c).arrAt_in 2 rfl _
theorem arrAt_in3 (c : Dev nD) : (dats m 0 c).arrAt 3 cfg0.N = m ((c : Thread nD τ).loc main_arg1) := (dats m 0 c).arrAt_in 3 rfl _

/-- The pipeline's arrays after the last grid point. -/
theorem arrays_final (c : Dev nD) :
    ((dats m 0 c).arrays ((dats m 0 c).arrAt · cfg0.N) : sProp 𝕄)
      = iprop((((c : Thread nD τ).loc main_arg0) ↦{fullShare.left} m ((c : Thread nD τ).loc main_arg0)) ∗ (((c : Thread nD τ).loc main_arg0) ↦{fullShare.right} m ((c : Thread nD τ).loc main_arg0))
          ∗ (((c : Thread nD τ).loc main_arg1) ↦{fullShare.left} m ((c : Thread nD τ).loc main_arg1)) ∗ (((c : Thread nD τ).loc main_arg1) ↦{fullShare.right} m ((c : Thread nD τ).loc main_arg1))
          ∗ (((c : Thread nD τ).loc main_v0) ↦{fullShare} outArr m c)) := by
  rw [arrays_chain]
  rw [arrAt_in0, arrAt_in1, arrAt_in2, arrAt_in3]

/-- What bypasses the region: the seven buffers the host operations write, as launched. -/
abbrev Zc (c : Dev nD) : sProp 𝕄 := Pipeline.unscopedRest spec0 c (V m c)
/-- What the certificate reads at the end: the loss. -/
abbrev Zc' (c : Dev nD) : sProp 𝕄 := (((c : Thread nD τ).loc main_v6) ↦{fullShare} result m c)

theorem hostOps1_fresh : ∀ ops ∈ [hostOps1 (F := F)], ∀ op ∈ ops, op.fresh = ∅ := by
  intro ops hops op hop
  obtain rfl := List.mem_singleton.mp hops
  revert op hop
  intro _ h; (repeat (cases h with | head => rfl | tail _ h => ?_)); exact nomatch h

theorem hostOps1_ucsub : ∀ ops ∈ [hostOps1 (F := F)], ∀ op ∈ ops, op.bufs ⊆ Pipeline.ucRefs τ sig := by
  intro ops hops op hop
  obtain rfl := List.mem_singleton.mp hops
  exact Pipeline.sub_ucRefs op ((List.forall_iff_forall_mem.mp hostOps1_sub) op hop)

set_option backward.isDefEq.respectTransparency.types false in
/-- THE HOST OPERATIONS AFTER THE REGION: from the region's exit they run on the buffers outside the kernel's scope
    and hand back the arrays as they were and the loss. -/
theorem htail (c : Dev nD) (Q' : PUnit → sProp 𝕄) :
    iprop((iprop((dats m 0 c).arrays ((dats m 0 c).arrAt · cfg0.N) ∗ Zc' m c) -∗ Q' ⟨⟩)
        ∗ boundary (c : Thread nD τ) ∗ (dats m 0 c).arrays ((dats m 0 c).arrAt · cfg0.N) ∗ Zc m c)
      ⊢ wp frame (wpE (defs (F := F)) (Variants.lift Variants.none) (c : Thread nD τ) none) Set.univ (Pipeline.chain ([hostOps1 (F := F)].map StableHlo.seq)) Q' := by
  rw [arrays_final]
  have hW : (StableHlo.held (c : Thread nD τ) (Pipeline.ucRefs τ sig) (tailW m c) : sProp 𝕄)
      = iprop(((((c : Thread nD τ).loc main_arg0) ↦{fullShare} m ((c : Thread nD τ).loc main_arg0)) ∗ (((c : Thread nD τ).loc main_arg1) ↦{fullShare} m ((c : Thread nD τ).loc main_arg1))
          ∗ (((c : Thread nD τ).loc main_v0) ↦{fullShare} outArr m c)) ∗ Zc m c) := by
    rw [held_eq, tailW_v0, tailW_of_ne m c main_arg0 (by decide), tailW_of_ne m c main_arg1 (by decide)]
    congr 1
  have hW' : (StableHlo.held (c : Thread nD τ) (Pipeline.ucRefs τ sig) (StableHlo.after [hostOps1 (F := F)].flatten (tailW m c)) : sProp 𝕄)
      ⊢ iprop((((c : Thread nD τ).loc main_arg0) ↦{fullShare} m ((c : Thread nD τ).loc main_arg0)) ∗ (((c : Thread nD τ).loc main_arg1) ↦{fullShare} m ((c : Thread nD τ).loc main_arg1))
          ∗ (((c : Thread nD τ).loc main_v0) ↦{fullShare} outArr m c) ∗ Zc' m c) := by
    rw [held_eq, List.flatten_cons, List.flatten_nil, List.append_nil,
      StableHlo.after_of_forall_not_mem (b := Proc.devRef .tc main_arg0) hostOps1 (tailW m c) (not_written main_arg0 (by decide)),
      StableHlo.after_of_forall_not_mem (b := Proc.devRef .tc main_arg1) hostOps1 (tailW m c) (not_written main_arg1 (by decide)),
      StableHlo.after_of_forall_not_mem (b := Proc.devRef .tc main_v0) hostOps1 (tailW m c) (not_written main_v0 (by decide)),
      tailW_v0, tailW_of_ne m c main_arg0 (by decide), tailW_of_ne m c main_arg1 (by decide), unscopedRest0_eq]
    iintro ⟨⟨H0, H1, H2⟩, -, -, -, -, -, -, H6⟩
    isplitl [H0]; · iexact H0
    isplitl [H1]; · iexact H1
    isplitl [H2]; · iexact H2
    iexact H6
  iintro ⟨Hk, Hb, ⟨A0l, A0r, A1l, A1r, Av0⟩, HZ⟩
  ihave A0 := (pointsTo_share (PosShare.mem_left_op_right fullShare)).2 $$ [A0l A0r]
  · isplitl [A0l] <;> iassumption
  ihave A1 := (pointsTo_share (PosShare.mem_left_op_right fullShare)).2 $$ [A1l A1r]
  · isplitl [A1l] <;> iassumption
  rw [← List.append_nil ([hostOps1 (F := F)].map StableHlo.seq)]
  iapply (Pipeline.wp_seqs_then (pcfgs (F := F)) defs₀ Variants.none c (Pipeline.ucRefs τ sig) [] [hostOps1] hostOps1_ucsub hostOps1_fresh (tailW m c)) $$ [Hb A0 A1 Av0 HZ]
  · rw [hW]
    isplitl [Hb]; · iexact Hb
    isplitr [HZ]
    · isplitl [A0]; · iexact A0
      isplitl [A1]; · iexact A1
      iexact Av0
    · iexact HZ
  iintro Hb
  rw [Pipeline.chain_nil, wp_pure]
  imodintro
  icases Hb with ⟨-, Hh⟩
  ihave Hh := hW' $$ Hh
  icases Hh with ⟨A0, A1, Av0, H6⟩
  ihave A0 := (pointsTo_share (PosShare.mem_left_op_right fullShare)).1 $$ A0
  icases A0 with ⟨A0l, A0r⟩
  ihave A1 := (pointsTo_share (PosShare.mem_left_op_right fullShare)).1 $$ A1
  icases A1 with ⟨A1l, A1r⟩
  iapply Hk
  isplitr [H6]
  · isplitl [A0l]; · iexact A0l
    isplitl [A0r]; · iexact A0r
    isplitl [A1l]; · iexact A1l
    isplitl [A1r]; · iexact A1r
    iexact Av0
  · iexact H6

/-- No table is prefetched. -/
abbrev adm : (p : Fin 1) → (pcfgs (F := F) p).Adm := fun p => (cfgs p).toPCfg_adm

set_option backward.isDefEq.respectTransparency.types false in
/-- THE RUN: from any memory with zero counters every weakly fair execution of @main terminates, nothing faulting,
    with the loss buffer at what the seven host operations make of the region's result and both arguments unchanged. -/
theorem run_main : θ_run (defs (F := F)) (onTc (τ := τ) (main (F := F))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_noSem_pf_tail (pcfgs (F := F)) adm (dats m) () cellOf_inj 0 winFacts₀0 (Pipeline.PreFacts.none _) emb₁ defs₀ Variants.none m ρ main
    (fun _ => Pipeline.chain ([hostOps1 (F := F)].map StableHlo.seq))
    (fun c => (body_obligation m c).loose) block_pos0 arr_whole0 stage_whole0 (fun _ _ => rfl)
    (u₀ := initOf (Pipeline.cells cfgs cellOf_inj) (Pipeline.launchToks cfgs cellOf_inj))
    (hu₀ := .rfl)
    (V := V m) (hmain := hmain m) (hsplit := hsplit m) (hpf := fun _ k => k.elim0)
    (X := fun _ => iprop(emp)) (Y := fun _ => iprop(emp)) (Z := Zc m) (Z' := Zc' m)
    (hX := fun c => by
      rw [show (pcfgs (F := F) 0).pre = Pipeline.Prefetch.none from rfl, Pipeline.unscopedRestP_none]
      iintro H; isplitr; · iempintro
      iexact H)
    (hin := fun c => (show iprop((BI.emp : sProp 𝕄) ∗ _ ∗ Pipeline.scopedRest spec0 c) ⊢ Pipeline.scopedRest spec0 c from by iintro ⟨-, -, Hr⟩; iexact Hr))
    (hout := fun c => (show (Pipeline.scopedRest spec0 c : sProp 𝕄) ⊢ iprop(BI.emp ∗ Pipeline.scopedRest spec0 c) from by
      iintro Hr; isplitr; · iempintro
      iexact Hr))
    (htail := htail m)
    (QY := fun c s => s.mem ((c.tc : Thread nD τ).loc main_v6) = result m c)
    (hY := fun c s' => by
      iintro ⟨-, H6, HSI⟩
      icombine HSI H6 gives %h
      imodintro
      isplitr; · ipureintro; exact Buf.eq_of_forall_mem_univ h
      iexact HSI)
    (hQ := fun s h c => ⟨(h c).2.2, ((h c).1 0).trans (arrAt_in0 m c), ((h c).1 2).trans (arrAt_in2 m c)⟩)

/-- info: 'Cert.Kernel.Frame.run_main' depends on axioms: [propext, Classical.choice, Quot.sound] -/
#guard_msgs in #print axioms run_main

end Cert.Kernel.Frame

end
-- ==== Proof.KIBody.lean ====
/-
  The kernel body run once per control case. At a grid point whose second coordinate is zero the body first clears
  its 8×128 accumulator block and then adds the tile's contribution; at every other point it adds the contribution
  to what the block already holds. In both cases the four input buffers are only read. What the accumulator block
  ends with is recorded as the list of the body's stores.
-/
import proofs.«182194_j5634997093005_2_alg».proof.Proof.Gen.KernelIdeal.Launch
import proofs.«182194_j5634997093005_2_alg».proof.Proof.Gen.KernelIdeal.Skeleton
import proofs.«182194_j5634997093005_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body: the second grid coordinate is zero. -/
abbrev cond0 (i : grid0.Coords) : Prop := (Scalar.cmpi .ne (Scalar.extui (Scalar.cmpi .eq (BitVec.ofNat 32 (i 1).val) 0#32)) 0#32) = 1#1
/-- It holds exactly at the first point of each of the two rows of the grid. -/
theorem hcond0 : ∀ t : Fin cfg0.N, cond0 (grid0.coords t) ↔ t.val % 8 = 0 :=
  (by decide +kernel : ∀ t : Fin grid0.N, cond0 (grid0.coords t) ↔ t.val % 8 = 0)

set_option maxHeartbeats 1000000 in
/-- The clearing case: the accumulator block may hold anything on entry. -/
noncomputable def kernelRunA (c : Dev nD) (i : grid0.Coords) (arg2 : Memref sig .tc .vmem S24x128 .f32) (harg2 : arg2.IsWhole) (arg3 : Memref sig .tc .vmem S384x128 .f32) (harg3 : arg3.IsWhole)
    (arg4 : Memref sig .tc .vmem S24x32 .f32) (harg4 : arg4.IsWhole) (arg5 : Memref sig .tc .vmem S384x32 .f32) (harg5 : arg5.IsWhole)
    (arg6 : Memref sig .tc .vmem S8x128 .f32) (harg6 : arg6.IsWhole) (hc : cond0 i)
    (x0 : Vec F S24x128 .f32) (x1 : Vec F S384x128 .f32) (x2 : Vec F S24x32 .f32) (x3 : Vec F S384x32 .f32) :
    { L : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__trust_kernel i arg2 harg2 arg3 harg3 arg4 harg4 arg5 harg5 arg6 harg6) K } := by
  refine ⟨?_, fun E K => ?run⟩
  case run =>
    simp only [cc0__trust_kernel_eq_skeleton]; unfold cc0__trust_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0
    obtain rfl := harg3.eq_unread hf1
    obtain rfl := harg4.eq_unread hf2
    obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- The accumulating case: the accumulator block holds `xo` on entry. -/
noncomputable def kernelRunB (c : Dev nD) (i : grid0.Coords) (arg2 : Memref sig .tc .vmem S24x128 .f32) (harg2 : arg2.IsWhole) (arg3 : Memref sig .tc .vmem S384x128 .f32) (harg3 : arg3.IsWhole)
    (arg4 : Memref sig .tc .vmem S24x32 .f32) (harg4 : arg4.IsWhole) (arg5 : Memref sig .tc .vmem S384x32 .f32) (harg5 : arg5.IsWhole)
    (arg6 : Memref sig .tc .vmem S8x128 .f32) (harg6 : arg6.IsWhole) (hc : ¬cond0 i)
    (x0 : Vec F S24x128 .f32) (x1 : Vec F S384x128 .f32) (x2 : Vec F S24x32 .f32) (x3 : Vec F S384x32 .f32) (xo : Vec F S8x128 .f32) :
    { L : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__trust_kernel i arg2 harg2 arg3 harg3 arg4 harg4 arg5 harg5 arg6 harg6) K } := by
  refine ⟨?_, fun E K => ?run⟩
  case run =>
    simp only [cc0__trust_kernel_eq_skeleton]; unfold cc0__trust_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0
    obtain rfl := harg3.eq_unread hf1
    obtain rfl := harg4.eq_unread hf2
    obtain rfl := harg5.eq_unread hf3
    obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Frame

end
-- ==== Proof.KIData.lean ====
/-
  The pipeline's proof data. The region is entered with every buffer as launched. Each of the four input windows
  holds, at every grid point, its block of the array behind it (a 24-row tile for windows 0 and 2, the whole array
  for windows 1 and 3, which are fetched once). The output window's 8×128 block is an accumulator: at a point whose
  second coordinate is zero it is cleared and then receives the tile's contribution, at the other points it receives
  the contribution on top of what the point before left; it is written back after the last point of each grid row.
  Windows 0, 1 read one array and windows 2, 3 another: each pair holds its array at one half share each.
-/
import proofs.«182194_j5634997093005_2_alg».proof.Proof.KIBody

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched (the region is @main's first line). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- One staging buffer of the output window, through which its contents are stated. -/
abbrev VO : View sig .tc .vmem S8x128 .f32 := (Memref.whole cc0_stg4_0 : Memref sig .tc .vmem S8x128 .f32).view
abbrev ms0 (t : Fin cfg0.N) : Memref sig .tc .vmem S24x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S384x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S24x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S384x32 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x128 .f32 := win0_4.stage (cfg0.slots t 4)
abbrev hs4 (t : Fin cfg0.N) : (ms4 t).IsWhole := hstage0_4 ((cfg0.slots t 4).cast nbuf0_4)

/-- The clearing case's stores tile the accumulator block, so they cover it. -/
theorem coverA (c : Dev nD) (i : grid0.Coords) (arg2 : Memref sig .tc .vmem S24x128 .f32) (harg2 : arg2.IsWhole) (arg3 : Memref sig .tc .vmem S384x128 .f32) (harg3 : arg3.IsWhole)
    (arg4 : Memref sig .tc .vmem S24x32 .f32) (harg4 : arg4.IsWhole) (arg5 : Memref sig .tc .vmem S384x32 .f32) (harg5 : arg5.IsWhole)
    (arg6 : Memref sig .tc .vmem S8x128 .f32) (harg6 : arg6.IsWhole) (hc : cond0 i)
    (x0 : Vec F S24x128 .f32) (x1 : Vec F S384x128 .f32) (x2 : Vec F S24x32 .f32) (x3 : Vec F S384x32 .f32) (y : S8x128.Idx) :
    ∃ pc ∈ (kernelRunA c i arg2 harg2 arg3 harg3 arg4 harg4 arg5 harg5 arg6 harg6 hc x0 x1 x2 x3).1, y ∈ pc.1.set :=
  View.cover_of_tiledL (kernelRunA c i arg2 harg2 arg3 harg3 arg4 harg4 arg5 harg5 arg6 harg6 hc x0 x1 x2 x3).1 S8x128.size (by sl_kernel_rfl) y

/-- What the clearing case leaves in the accumulator block. -/
def outA (c : Dev nD) (i : grid0.Coords) (arg2 : Memref sig .tc .vmem S24x128 .f32) (harg2 : arg2.IsWhole) (arg3 : Memref sig .tc .vmem S384x128 .f32) (harg3 : arg3.IsWhole)
    (arg4 : Memref sig .tc .vmem S24x32 .f32) (harg4 : arg4.IsWhole) (arg5 : Memref sig .tc .vmem S384x32 .f32) (harg5 : arg5.IsWhole)
    (arg6 : Memref sig .tc .vmem S8x128 .f32) (harg6 : arg6.IsWhole) (hc : cond0 i)
    (x0 : Vec F S24x128 .f32) (x1 : Vec F S384x128 .f32) (x2 : Vec F S24x32 .f32) (x3 : Vec F S384x32 .f32) : Vec F S8x128 .f32 :=
  VO.read (Elt F) (VO.writes (Elt F) VO.junk (kernelRunA c i arg2 harg2 arg3 harg3 arg4 harg4 arg5 harg5 arg6 harg6 hc x0 x1 x2 x3).1)

/-- The accumulating case's store covers the accumulator block. -/
theorem coverB (c : Dev nD) (i : grid0.Coords) (arg2 : Memref sig .tc .vmem S24x128 .f32) (harg2 : arg2.IsWhole) (arg3 : Memref sig .tc .vmem S384x128 .f32) (harg3 : arg3.IsWhole)
    (arg4 : Memref sig .tc .vmem S24x32 .f32) (harg4 : arg4.IsWhole) (arg5 : Memref sig .tc .vmem S384x32 .f32) (harg5 : arg5.IsWhole)
    (arg6 : Memref sig .tc .vmem S8x128 .f32) (harg6 : arg6.IsWhole) (hc : ¬cond0 i)
    (x0 : Vec F S24x128 .f32) (x1 : Vec F S384x128 .f32) (x2 : Vec F S24x32 .f32) (x3 : Vec F S384x32 .f32) (xo : Vec F S8x128 .f32) (y : S8x128.Idx) :
    ∃ pc ∈ (kernelRunB c i arg2 harg2 arg3 harg3 arg4 harg4 arg5 harg5 arg6 harg6 hc x0 x1 x2 x3 xo).1, y ∈ pc.1.set :=
  View.cover_of_tiledL (kernelRunB c i arg2 harg2 arg3 harg3 arg4 harg4 arg5 harg5 arg6 harg6 hc x0 x1 x2 x3 xo).1 S8x128.size (by sl_kernel_rfl) y

/-- What the accumulating case leaves in the accumulator block, from what it found there. -/
def outB (c : Dev nD) (i : grid0.Coords) (arg2 : Memref sig .tc .vmem S24x128 .f32) (harg2 : arg2.IsWhole) (arg3 : Memref sig .tc .vmem S384x128 .f32) (harg3 : arg3.IsWhole)
    (arg4 : Memref sig .tc .vmem S24x32 .f32) (harg4 : arg4.IsWhole) (arg5 : Memref sig .tc .vmem S384x32 .f32) (harg5 : arg5.IsWhole)
    (arg6 : Memref sig .tc .vmem S8x128 .f32) (harg6 : arg6.IsWhole) (hc : ¬cond0 i)
    (x0 : Vec F S24x128 .f32) (x1 : Vec F S384x128 .f32) (x2 : Vec F S24x32 .f32) (x3 : Vec F S384x32 .f32) (xo : Vec F S8x128 .f32) : Vec F S8x128 .f32 :=
  VO.read (Elt F) (VO.writes (Elt F) VO.junk (kernelRunB c i arg2 harg2 arg3 harg3 arg4 harg4 arg5 harg5 arg6 harg6 hc x0 x1 x2 x3 xo).1)

/-- THE ACCUMULATION: what the accumulator block holds after the body at position `n` of the grid. -/
def outsAt (c : Dev nD) : (n : ℕ) → n < cfg0.N → Vec F S8x128 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩)
      ((hcond0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 8 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        ((hcond0 ⟨n + 1, hn⟩).mpr h0) (iblk m c 0 ⟨n + 1, hn⟩) (iblk m c 1 ⟨n + 1, hn⟩) (iblk m c 2 ⟨n + 1, hn⟩) (iblk m c 3 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        (fun h => h0 ((hcond0 ⟨n + 1, hn⟩).mp h)) (iblk m c 0 ⟨n + 1, hn⟩) (iblk m c 1 ⟨n + 1, hn⟩) (iblk m c 2 ⟨n + 1, hn⟩) (iblk m c 3 ⟨n + 1, hn⟩)
        (outsAt c n (Nat.lt_of_succ_lt hn))

/-- At a clearing point. -/
theorem outsAt_A (c : Dev nD) (t : Fin cfg0.N) (h0 : t.val % 8 = 0) :
    outsAt m c t.val t.isLt = outA c (grid0.coords t) (ms0 t) (hs0 t) (ms1 t) (hs1 t) (ms2 t) (hs2 t) (ms3 t) (hs3 t) (ms4 t) (hs4 t)
      ((hcond0 t).mpr h0) (iblk m c 0 t) (iblk m c 1 t) (iblk m c 2 t) (iblk m c 3 t) := by
  obtain ⟨n, hn⟩ := t
  cases n with
  | zero => exact rfl
  | succ n => exact (dif_pos h0).trans rfl

/-- At an accumulating point: over what the point before left. -/
theorem outsAt_B (c : Dev nD) (t : Fin cfg0.N) (h0 : ¬t.val % 8 = 0) :
    outsAt m c t.val t.isLt = outB c (grid0.coords t) (ms0 t) (hs0 t) (ms1 t) (hs1 t) (ms2 t) (hs2 t) (ms3 t) (hs3 t) (ms4 t) (hs4 t)
      (fun h => h0 ((hcond0 t).mp h)) (iblk m c 0 t) (iblk m c 1 t) (iblk m c 2 t) (iblk m c 3 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t.val t.isLt
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outsAt m c t.val t.isLt := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-- At an accumulating point the accumulator block holds what the body left at the point before: the point is not
    the first and the block was not written back in between. -/
theorem before4_B (c : Dev nD) (t : Fin cfg0.N) (h0 : ¬t.val % 8 = 0) (d) :
    (dats m 0 c).before 4 t d = outsAt m c (t.val - 1) (Nat.lt_of_le_of_lt (Nat.sub_le _ _) t.isLt) := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point: the inputs' buffers hold their blocks; the point's second coordinate says which case it
    is in; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  have hN : t.val < 16 := lt_of_lt_of_eq t.isLt (show cfg0.N = 16 from N_0)
  by_cases h0 : t.val % 8 = 0
  · rw [outsAt_A m c t h0]
    unfold outA
    iintro ⟨HΦ, Ho, ⟨%d0, H0⟩, ⟨%d1, H1⟩, ⟨%d2, H2⟩, ⟨%d3, H3⟩, ⟨%d4, H4⟩⟩
    iapply ((kernelRunA c (grid0.coords t) _ _ _ _ _ _ _ _ _ _ ((hcond0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverA c _ _ _ _ _ _ _ _ _ _ _ _ _ _ _ _)
  · rw [outsAt_B m c t h0]
    simp only [before4_B m c t h0]
    unfold outB
    iintro ⟨HΦ, Ho, ⟨%d0, H0⟩, ⟨%d1, H1⟩, ⟨%d2, H2⟩, ⟨%d3, H3⟩, ⟨%d4, H4⟩⟩
    iapply ((kernelRunB c (grid0.coords t) _ _ _ _ _ _ _ _ _ _ (fun h => h0 ((hcond0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frame

end
-- ==== Proof.KILaunch.lean ====
/-
  The launch. @main is the kernel region followed by seven host operations that read the region's result. The region
  is entered with the two argument arrays each dealt to the two windows that read it, one half share each, and the
  result array handed to the output window whole; after the last grid point the two halves of each argument array are
  joined again and the host operations run on every buffer outside the kernel's scope: the result array as the region
  left it, every other buffer as launched.
-/
import proofs.«182194_j5634997093005_2_alg».proof.Proof.KIData
import Idealize.ShloMosaic.Lib.Pipeline.FrameSuffix

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main reduces to the region continued by the host operations, every buffer as launched at the region's entry. -/
theorem hmain : Pipeline.HMainK (Ix := Unit) (Name := ℕ) (U := UR sig nD τ) (Lvl := ℕ) cfgs 0 defs₀ Variants.none m (main (F := F))
    (V m) (fun _ => Pipeline.chain ([hostOps1 (F := F)].map StableHlo.seq)) :=
  Pipeline.hmain_around cfgs 0 defs₀ Variants.none m main [] [hostOps1] trivial trivial fun c => (main_chain c).trans rfl

/-- The pipeline's arrays, window by window: the two halves of each argument array and the whole result array. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_arg1) ↦{fullShare.left} G 2) ∗ (((c : Thread nD τ).loc main_arg1) ↦{fullShare.right} G 3)
          ∗ (((c : Thread nD τ).loc main_v0) ↦{fullShare} G 4)) := by
  unfold Dat.arrays
  rw [bigSep_W0, (arr_whole0 0).set_eq_univ, (arr_whole0 2).set_eq_univ, (arr_whole0 4).set_eq_univ]
  rfl

/-- The buffers behind the arrays, each whole, listed. -/
theorem arrBufs_chain (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0)) := by
  unfold Pipeline.arrBufs
  exact bigSep_eq_bigSepL_of_eq [main_arg0, main_arg1, main_v0] (by decide) (by decide) _

/-- At the region's entry each argument array is dealt to its two windows, half and half. -/
theorem hsplit (c : Dev nD) : (Pipeline.arrBufs spec0 c (V m c) : sProp 𝕄) ⊢ (dats m 0 c).arrays ((dats m 0 c).arrAt · 0) := by
  rw [arrBufs_chain, arrays_chain]
  iintro ⟨H0, H1, H2⟩
  ihave H0 := (pointsTo_share (PosShare.mem_left_op_right fullShare)).1 $$ H0
  icases H0 with ⟨H0l, H0r⟩
  ihave H1 := (pointsTo_share (PosShare.mem_left_op_right fullShare)).1 $$ H1
  icases H1 with ⟨H1l, H1r⟩
  isplitl [H0l]; · iexact H0l
  isplitl [H0r]; · iexact H0r
  isplitl [H1l]; · iexact H1l
  isplitl [H1r]; · iexact H1r
  iexact H2

/-- The result array after the last grid point. -/
abbrev outArr (c : Dev nD) : Buf (Elt F) ((c : Thread nD τ).loc main_v0) := (dats m 0 c).arrAt 4 cfg0.N

/-- Core `c`'s buffers when the region is left: the result array as the region wrote it, every other as launched. -/
def tailW (c : Dev nD) : Valuation τ sig (Elt F) :=
  Function.update (fun b : DevRef τ sig => m (c, b)) (Proc.devRef .tc main_v0) (outArr m c)

theorem tailW_v0 (c : Dev nD) : tailW m c (Proc.devRef .tc main_v0) = outArr m c := by
  unfold tailW; exact Function.update_self ..

theorem tailW_of_ne (c : Dev nD) (b : Ref sig .tc) (hb : b ≠ main_v0) : tailW m c (Proc.devRef .tc b) = m ((c : Thread nD τ).loc b) := by
  unfold tailW; exact Function.update_of_ne (StableHlo.devRef_ne_of_ne hb) ..

/-- The host operations write neither argument array nor the kernel's result array. -/
theorem not_written (b : Ref sig .tc) (hb : b ≠ main_v1 ∧ b ≠ main_v2 ∧ b ≠ main_v3 ∧ b ≠ main_v4 ∧ b ≠ main_v5 ∧ b ≠ main_cst ∧ b ≠ main_v6) :
    ∀ op ∈ (hostOps1 (F := F)), Proc.devRef .tc b ∉ op.writes := by
  obtain ⟨h1, h2, h3, h4, h5, h6, h7⟩ := hb
  intro op hop
  simp only [List.mem_cons, List.mem_nil_iff, or_false] at hop
  rcases hop with rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- The loss as the host operations leave it: the seven operations applied from the region's exit. -/
def result (c : Dev nD) : Buf (Elt F) ((c : Thread nD τ).loc main_v6) :=
  StableHlo.after hostOps1 (tailW m c) (Proc.devRef .tc main_v6)

/-- Every buffer outside the kernel's scope held at a valuation: the three arrays and the rest. -/
theorem held_eq (c : Dev nD) (Wv : Valuation τ sig (Elt F)) :
    (StableHlo.held (c : Thread nD τ) (Pipeline.ucRefs τ sig) Wv : sProp 𝕄)
      = iprop(((((c : Thread nD τ).loc main_arg0) ↦{fullShare} Wv (Proc.devRef .tc main_arg0)) ∗ (((c : Thread nD τ).loc main_arg1) ↦{fullShare} Wv (Proc.devRef .tc main_arg1))
          ∗ (((c : Thread nD τ).loc main_v0) ↦{fullShare} Wv (Proc.devRef .tc main_v0)))
        ∗ Pipeline.unscopedRest spec0 c (fun b => Wv (Proc.devRef .tc b))) := by
  rw [← Pipeline.unscopedBufs_held (Ix := Unit) (Name := ℕ) (U := UR sig nD τ) (Lvl := ℕ) c Wv,
    Pipeline.unscopedBufs_split₀ cfgs 0 winFacts₀0.arr_unscoped c, arrBufs_chain]

/-- The argument arrays end as launched: an input window's array is never written. -/
theorem arrAt_in0 (c : Dev nD) : (dats m 0 c).arrAt 0 cfg0.N = m ((c : Thread nD τ).loc main_arg0) := (dats m 0 c).arrAt_in 0 rfl _
theorem arrAt_in1 (c : Dev nD) : (dats m 0 c).arrAt 1 cfg0.N = m ((c : Thread nD τ).loc main_arg0) := (dats m 0 c).arrAt_in 1 rfl _
theorem arrAt_in2 (c : Dev nD) : (dats m 0 c).arrAt 2 cfg0.N = m ((c : Thread nD τ).loc main_arg1) := (dats m 0 c).arrAt_in 2 rfl _
theorem arrAt_in3 (c : Dev nD) : (dats m 0 c).arrAt 3 cfg0.N = m ((c : Thread nD τ).loc main_arg1) := (dats m 0 c).arrAt_in 3 rfl _

/-- The pipeline's arrays after the last grid point. -/
theorem arrays_final (c : Dev nD) :
    ((dats m 0 c).arrays ((dats m 0 c).arrAt · cfg0.N) : sProp 𝕄)
      = iprop((((c : Thread nD τ).loc main_arg0) ↦{fullShare.left} m ((c : Thread nD τ).loc main_arg0)) ∗ (((c : Thread nD τ).loc main_arg0) ↦{fullShare.right} m ((c : Thread nD τ).loc main_arg0))
          ∗ (((c : Thread nD τ).loc main_arg1) ↦{fullShare.left} m ((c : Thread nD τ).loc main_arg1)) ∗ (((c : Thread nD τ).loc main_arg1) ↦{fullShare.right} m ((c : Thread nD τ).loc main_arg1))
          ∗ (((c : Thread nD τ).loc main_v0) ↦{fullShare} outArr m c)) := by
  rw [arrays_chain]
  rw [arrAt_in0, arrAt_in1, arrAt_in2, arrAt_in3]

/-- What bypasses the region: the seven buffers the host operations write, as launched. -/
abbrev Zc (c : Dev nD) : sProp 𝕄 := Pipeline.unscopedRest spec0 c (V m c)
/-- What the certificate reads at the end: the loss. -/
abbrev Zc' (c : Dev nD) : sProp 𝕄 := (((c : Thread nD τ).loc main_v6) ↦{fullShare} result m c)

theorem hostOps1_fresh : ∀ ops ∈ [hostOps1 (F := F)], ∀ op ∈ ops, op.fresh = ∅ := by
  intro ops hops op hop
  obtain rfl := List.mem_singleton.mp hops
  revert op hop
  intro _ h; (repeat (cases h with | head => rfl | tail _ h => ?_)); exact nomatch h

theorem hostOps1_ucsub : ∀ ops ∈ [hostOps1 (F := F)], ∀ op ∈ ops, op.bufs ⊆ Pipeline.ucRefs τ sig := by
  intro ops hops op hop
  obtain rfl := List.mem_singleton.mp hops
  exact Pipeline.sub_ucRefs op ((List.forall_iff_forall_mem.mp hostOps1_sub) op hop)

set_option backward.isDefEq.respectTransparency.types false in
/-- THE HOST OPERATIONS AFTER THE REGION: from the region's exit they run on the buffers outside the kernel's scope
    and hand back the arrays as they were and the loss. -/
theorem htail (c : Dev nD) (Q' : PUnit → sProp 𝕄) :
    iprop((iprop((dats m 0 c).arrays ((dats m 0 c).arrAt · cfg0.N) ∗ Zc' m c) -∗ Q' ⟨⟩)
        ∗ boundary (c : Thread nD τ) ∗ (dats m 0 c).arrays ((dats m 0 c).arrAt · cfg0.N) ∗ Zc m c)
      ⊢ wp frame (wpE (defs (F := F)) (Variants.lift Variants.none) (c : Thread nD τ) none) Set.univ (Pipeline.chain ([hostOps1 (F := F)].map StableHlo.seq)) Q' := by
  rw [arrays_final]
  have hW : (StableHlo.held (c : Thread nD τ) (Pipeline.ucRefs τ sig) (tailW m c) : sProp 𝕄)
      = iprop(((((c : Thread nD τ).loc main_arg0) ↦{fullShare} m ((c : Thread nD τ).loc main_arg0)) ∗ (((c : Thread nD τ).loc main_arg1) ↦{fullShare} m ((c : Thread nD τ).loc main_arg1))
          ∗ (((c : Thread nD τ).loc main_v0) ↦{fullShare} outArr m c)) ∗ Zc m c) := by
    rw [held_eq, tailW_v0, tailW_of_ne m c main_arg0 (by decide), tailW_of_ne m c main_arg1 (by decide)]
    congr 1
  have hW' : (StableHlo.held (c : Thread nD τ) (Pipeline.ucRefs τ sig) (StableHlo.after [hostOps1 (F := F)].flatten (tailW m c)) : sProp 𝕄)
      ⊢ iprop((((c : Thread nD τ).loc main_arg0) ↦{fullShare} m ((c : Thread nD τ).loc main_arg0)) ∗ (((c : Thread nD τ).loc main_arg1) ↦{fullShare} m ((c : Thread nD τ).loc main_arg1))
          ∗ (((c : Thread nD τ).loc main_v0) ↦{fullShare} outArr m c) ∗ Zc' m c) := by
    rw [held_eq, List.flatten_cons, List.flatten_nil, List.append_nil,
      StableHlo.after_of_forall_not_mem (b := Proc.devRef .tc main_arg0) hostOps1 (tailW m c) (not_written main_arg0 (by decide)),
      StableHlo.after_of_forall_not_mem (b := Proc.devRef .tc main_arg1) hostOps1 (tailW m c) (not_written main_arg1 (by decide)),
      StableHlo.after_of_forall_not_mem (b := Proc.devRef .tc main_v0) hostOps1 (tailW m c) (not_written main_v0 (by decide)),
      tailW_v0, tailW_of_ne m c main_arg0 (by decide), tailW_of_ne m c main_arg1 (by decide), unscopedRest0_eq]
    iintro ⟨⟨H0, H1, H2⟩, -, -, -, -, -, -, H6⟩
    isplitl [H0]; · iexact H0
    isplitl [H1]; · iexact H1
    isplitl [H2]; · iexact H2
    iexact H6
  iintro ⟨Hk, Hb, ⟨A0l, A0r, A1l, A1r, Av0⟩, HZ⟩
  ihave A0 := (pointsTo_share (PosShare.mem_left_op_right fullShare)).2 $$ [A0l A0r]
  · isplitl [A0l] <;> iassumption
  ihave A1 := (pointsTo_share (PosShare.mem_left_op_right fullShare)).2 $$ [A1l A1r]
  · isplitl [A1l] <;> iassumption
  rw [← List.append_nil ([hostOps1 (F := F)].map StableHlo.seq)]
  iapply (Pipeline.wp_seqs_then (pcfgs (F := F)) defs₀ Variants.none c (Pipeline.ucRefs τ sig) [] [hostOps1] hostOps1_ucsub hostOps1_fresh (tailW m c)) $$ [Hb A0 A1 Av0 HZ]
  · rw [hW]
    isplitl [Hb]; · iexact Hb
    isplitr [HZ]
    · isplitl [A0]; · iexact A0
      isplitl [A1]; · iexact A1
      iexact Av0
    · iexact HZ
  iintro Hb
  rw [Pipeline.chain_nil, wp_pure]
  imodintro
  icases Hb with ⟨-, Hh⟩
  ihave Hh := hW' $$ Hh
  icases Hh with ⟨A0, A1, Av0, H6⟩
  ihave A0 := (pointsTo_share (PosShare.mem_left_op_right fullShare)).1 $$ A0
  icases A0 with ⟨A0l, A0r⟩
  ihave A1 := (pointsTo_share (PosShare.mem_left_op_right fullShare)).1 $$ A1
  icases A1 with ⟨A1l, A1r⟩
  iapply Hk
  isplitr [H6]
  · isplitl [A0l]; · iexact A0l
    isplitl [A0r]; · iexact A0r
    isplitl [A1l]; · iexact A1l
    isplitl [A1r]; · iexact A1r
    iexact Av0
  · iexact H6

/-- No table is prefetched. -/
abbrev adm : (p : Fin 1) → (pcfgs (F := F) p).Adm := fun p => (cfgs p).toPCfg_adm

set_option backward.isDefEq.respectTransparency.types false in
/-- THE RUN: from any memory with zero counters every weakly fair execution of @main terminates, nothing faulting,
    with the loss buffer at what the seven host operations make of the region's result and both arguments unchanged. -/
theorem run_main : θ_run (defs (F := F)) (onTc (τ := τ) (main (F := F))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_noSem_pf_tail (pcfgs (F := F)) adm (dats m) () cellOf_inj 0 winFacts₀0 (Pipeline.PreFacts.none _) emb₁ defs₀ Variants.none m ρ main
    (fun _ => Pipeline.chain ([hostOps1 (F := F)].map StableHlo.seq))
    (fun c => (body_obligation m c).loose) block_pos0 arr_whole0 stage_whole0 (fun _ _ => rfl)
    (u₀ := initOf (Pipeline.cells cfgs cellOf_inj) (Pipeline.launchToks cfgs cellOf_inj))
    (hu₀ := .rfl)
    (V := V m) (hmain := hmain m) (hsplit := hsplit m) (hpf := fun _ k => k.elim0)
    (X := fun _ => iprop(emp)) (Y := fun _ => iprop(emp)) (Z := Zc m) (Z' := Zc' m)
    (hX := fun c => by
      rw [show (pcfgs (F := F) 0).pre = Pipeline.Prefetch.none from rfl, Pipeline.unscopedRestP_none]
      iintro H; isplitr; · iempintro
      iexact H)
    (hin := fun c => (show iprop((BI.emp : sProp 𝕄) ∗ _ ∗ Pipeline.scopedRest spec0 c) ⊢ Pipeline.scopedRest spec0 c from by iintro ⟨-, -, Hr⟩; iexact Hr))
    (hout := fun c => (show (Pipeline.scopedRest spec0 c : sProp 𝕄) ⊢ iprop(BI.emp ∗ Pipeline.scopedRest spec0 c) from by
      iintro Hr; isplitr; · iempintro
      iexact Hr))
    (htail := htail m)
    (QY := fun c s => s.mem ((c.tc : Thread nD τ).loc main_v6) = result m c)
    (hY := fun c s' => by
      iintro ⟨-, H6, HSI⟩
      icombine HSI H6 gives %h
      imodintro
      isplitr; · ipureintro; exact Buf.eq_of_forall_mem_univ h
      iexact HSI)
    (hQ := fun s h c => ⟨(h c).2.2, ((h c).1 0).trans (arrAt_in0 m c), ((h c).1 2).trans (arrAt_in2 m c)⟩)

/-- info: 'Cert.KernelIdeal.Frame.run_main' depends on axioms: [propext, Classical.choice, Quot.sound] -/
#guard_msgs in #print axioms run_main

end Cert.KernelIdeal.Frame

end
-- ==== Proof.KIPieces.lean ====
/-
  What the accumulator block holds, as values. At an accumulating point the body leaves the tile's payload over what
  the block held; at a clearing point the same payload over the zero block it has just stored.
-/
import proofs.«182194_j5634997093005_2_alg».proof.Proof.KIData
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The body's one arithmetic term: the accumulator block after a point, from the four input blocks and the block
    before. -/
abbrev tilePay (x0 : Vec F S24x128 .f32) (x1 : Vec F S384x128 .f32) (x2 : Vec F S24x32 .f32) (x3 : Vec F S384x32 .f32) (acc : Vec F S8x128 .f32) :
    FVec F S8x128 .f32 :=
  k0_pay1 (k0_pay6 (k0_pay3 x0 x1) k0_pay4 (k0_pay5 x0 x1)) (k0_pay9 (k0_pay7 x2 x3) k0_pay8) k0_pay10 acc

/-- The accumulating case: the payload over what the block held. -/
theorem out_B (c : Dev nD) (i : grid0.Coords) (arg2 : Memref sig .tc .vmem S24x128 .f32) (harg2 : arg2.IsWhole) (arg3 : Memref sig .tc .vmem S384x128 .f32) (harg3 : arg3.IsWhole)
    (arg4 : Memref sig .tc .vmem S24x32 .f32) (harg4 : arg4.IsWhole) (arg5 : Memref sig .tc .vmem S384x32 .f32) (harg5 : arg5.IsWhole)
    (arg6 : Memref sig .tc .vmem S8x128 .f32) (harg6 : arg6.IsWhole) (hc : ¬cond0 i)
    (x0 : Vec F S24x128 .f32) (x1 : Vec F S384x128 .f32) (x2 : Vec F S24x32 .f32) (x3 : Vec F S384x32 .f32) (xo : Vec F S8x128 .f32) :
    outB c i arg2 harg2 arg3 harg3 arg4 harg4 arg5 harg5 arg6 harg6 hc x0 x1 x2 x3 xo = tilePay x0 x1 x2 x3 xo := by
  unfold outB
  rw [View.read_writes_eq_canon _ _ _ (coverB c i arg2 harg2 arg3 harg3 arg4 harg4 arg5 harg5 arg6 harg6 hc x0 x1 x2 x3 xo)]
  unfold kernelRunB
  dsimp only
  sl_unfold_words
  rw [View.canon_unit_zero hz]
  simp only [View.readAt_eq_ld, harg2.read_unread, harg3.read_unread, harg4.read_unread, harg5.read_unread, harg6.read_unread,
    View.ld_unit_zero (S := S24x128) hz, View.ld_unit_zero (S := S384x128) hz, View.ld_unit_zero (S := S24x32) hz,
    View.ld_unit_zero (S := S384x32) hz, View.ld_unit_zero (S := S8x128) hz]

/-- The clearing case: the payload over the zero block. -/
theorem out_A (c : Dev nD) (i : grid0.Coords) (arg2 : Memref sig .tc .vmem S24x128 .f32) (harg2 : arg2.IsWhole) (arg3 : Memref sig .tc .vmem S384x128 .f32) (harg3 : arg3.IsWhole)
    (arg4 : Memref sig .tc .vmem S24x32 .f32) (harg4 : arg4.IsWhole) (arg5 : Memref sig .tc .vmem S384x32 .f32) (harg5 : arg5.IsWhole)
    (arg6 : Memref sig .tc .vmem S8x128 .f32) (harg6 : arg6.IsWhole) (hc : cond0 i)
    (x0 : Vec F S24x128 .f32) (x1 : Vec F S384x128 .f32) (x2 : Vec F S24x32 .f32) (x3 : Vec F S384x32 .f32) :
    outA c i arg2 harg2 arg3 harg3 arg4 harg4 arg5 harg5 arg6 harg6 hc x0 x1 x2 x3 = tilePay x0 x1 x2 x3 (k0_pay2 (F := F)) := by
  unfold outA
  rw [View.read_writes_eq_canon _ _ _ (coverA c i arg2 harg2 arg3 harg3 arg4 harg4 arg5 harg5 arg6 harg6 hc x0 x1 x2 x3)]
  unfold kernelRunA
  dsimp only
  sl_unfold_words
  rw [View.canon_cons_unit_zero (S := S8x128) hz, View.readCov_unit_zero (S := S8x128) _ hz]
  simp only [View.readAt_eq_ld, harg2.read_unread, harg3.read_unread, harg4.read_unread, harg5.read_unread,
    View.ld_unit_zero (S := S24x128) hz, View.ld_unit_zero (S := S384x128) hz, View.ld_unit_zero (S := S24x32) hz,
    View.ld_unit_zero (S := S384x32) hz, View.ld_unit_zero (S := S8x128) hz]

end Cert.KernelIdeal.Frame

end
-- ==== Proof.KIBlocks.lean ====
/-
  The kernel's windows read as entries of the arrays behind them. The grid is 2 × 8 and its points are taken in
  row-major order, so point t has coordinates (t / 8, t % 8). The tile windows (rows of the first and of the second
  input) hold at point t the 24 rows 24·t, …, 24·t + 23 of their array; the two whole-array windows hold the whole
  array at every point. The output window's 8 × 128 block sits at rows 8·(t / 8), … of the 16 × 128 result and is
  written back after the last point of each grid row (points 7 and 15); the two written blocks do not meet, so an entry
  of the result under one of them ends at what that point wrote there.
-/
import proofs.«182194_j5634997093005_2_alg».proof.Proof.KIData
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ### The block index of each window at each point, decided once over the grid -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val / 8 ∧ win0_4.index t 1 = 0 :=
  (by decide +kernel : ∀ t : Fin grid0.N, win0_4.index t 0 = t.val / 8 ∧ win0_4.index t 1 = 0)

/-- A point of the grid is below 16. -/
theorem t_lt (t : Fin cfg0.N) : t.val < 16 := lt_of_lt_of_eq t.isLt (show cfg0.N = 16 from N_0)

/-! ### The input windows -/

/-- Row r of the first input's tile at point t is row 24·t + r of the first input. -/
theorem iblk0_apply (c : Dev nD) (t : Fin cfg0.N) (r : Fin 24) (k : Fin 128) :
    iblk m c 0 t (ValueIdx.ix2 r k)
      = m ((c : Thread nD τ).loc main_arg0) (ValueIdx.ix2 (⟨24 * t.val + r.val, by have := t_lt t; omega⟩ : Fin 384) k) := by
  unfold iblk
  rw [View.read_apply]
  show V m c main_arg0 _ = m (c.tc.loc main_arg0) _
  unfold V
  congr 1
  funext a
  apply Fin.ext
  match a with
  | ⟨0, _⟩ => show win0_0.index t 0 * 24 + 1 * r.val = 24 * t.val + r.val; rw [(idx0 t).1]; omega
  | ⟨1, _⟩ => show win0_0.index t 1 * 128 + 1 * k.val = k.val; rw [(idx0 t).2]; omega

/-- The first input's whole-array window holds the first input. -/
theorem iblk1_apply (c : Dev nD) (t : Fin cfg0.N) (b : Fin 384) (k : Fin 128) :
    iblk m c 1 t (ValueIdx.ix2 b k) = m ((c : Thread nD τ).loc main_arg0) (ValueIdx.ix2 b k) := by
  unfold iblk
  rw [View.read_apply]
  show V m c main_arg0 _ = m (c.tc.loc main_arg0) _
  unfold V
  congr 1
  funext a
  apply Fin.ext
  match a with
  | ⟨0, _⟩ => show win0_1.index t 0 * 384 + 1 * b.val = b.val; rw [(idx1 t).1]; omega
  | ⟨1, _⟩ => show win0_1.index t 1 * 128 + 1 * k.val = k.val; rw [(idx1 t).2]; omega

/-- Row r of the second input's tile at point t is row 24·t + r of the second input. -/
theorem iblk2_apply (c : Dev nD) (t : Fin cfg0.N) (r : Fin 24) (k : Fin 32) :
    iblk m c 2 t (ValueIdx.ix2 r k)
      = m ((c : Thread nD τ).loc main_arg1) (ValueIdx.ix2 (⟨24 * t.val + r.val, by have := t_lt t; omega⟩ : Fin 384) k) := by
  unfold iblk
  rw [View.read_apply]
  show V m c main_arg1 _ = m (c.tc.loc main_arg1) _
  unfold V
  congr 1
  funext a
  apply Fin.ext
  match a with
  | ⟨0, _⟩ => show win0_2.index t 0 * 24 + 1 * r.val = 24 * t.val + r.val; rw [(idx2 t).1]; omega
  | ⟨1, _⟩ => show win0_2.index t 1 * 32 + 1 * k.val = k.val; rw [(idx2 t).2]; omega

/-- The second input's whole-array window holds the second input. -/
theorem iblk3_apply (c : Dev nD) (t : Fin cfg0.N) (b : Fin 384) (k : Fin 32) :
    iblk m c 3 t (ValueIdx.ix2 b k) = m ((c : Thread nD τ).loc main_arg1) (ValueIdx.ix2 b k) := by
  unfold iblk
  rw [View.read_apply]
  show V m c main_arg1 _ = m (c.tc.loc main_arg1) _
  unfold V
  congr 1
  funext a
  apply Fin.ext
  match a with
  | ⟨0, _⟩ => show win0_3.index t 0 * 384 + 1 * b.val = b.val; rw [(idx3 t).1]; omega
  | ⟨1, _⟩ => show win0_3.index t 1 * 32 + 1 * k.val = k.val; rw [(idx3 t).2]; omega

/-! ### The output window -/

/-- The output block is never cut at the result's end. -/
theorem xsize4 : ∀ t : Fin cfg0.N, win0_4.xsize (grid0.coords t) 0 = 8 ∧ win0_4.xsize (grid0.coords t) 1 = 128 :=
  (by decide +kernel : ∀ t : Fin grid0.N, win0_4.xsize (grid0.coords t) 0 = 8 ∧ win0_4.xsize (grid0.coords t) 1 = 128)

/-- An entry of the result under the block of point t has its row among the 8 rows from 8·(t / 8) on. -/
theorem mem_blk4 (t : Fin cfg0.N) (i : _) (hi : i ∈ ((cfg0.win 4).blk t).view.set) :
    8 * (t.val / 8) ≤ (i 0 : Nat) ∧ (i 0 : Nat) < 8 * (t.val / 8) + 8 := by
  change i ∈ ((View.whole main_v0).slice (win0_4.rect t)).set at hi
  rw [View.set_slice_whole, Rect.mem_set_unit] at hi
  have h := hi 0
  change win0_4.index t 0 * win0_4.size 0 ≤ (i 0 : Nat)
    ∧ (i 0 : Nat) < win0_4.index t 0 * win0_4.size 0 + win0_4.xsize (grid0.coords t) 0 at h
  rw [(idx4 t).1, (xsize4 t).1, show win0_4.size 0 = 8 from rfl] at h
  omega

/-- The two blocks written back (after points 7 and 15) do not meet: rows 0–7 and rows 8–15. -/
theorem hdisj4 : ∀ t t' : Fin cfg0.N, (cfg0.win 4).flush t = true → (cfg0.win 4).flush t' = true → t ≠ t' →
    Disjoint ((cfg0.win 4).blk t).view.set ((cfg0.win 4).blk t').view.set := by
  intro t t' hf hf' hne
  rw [Finset.disjoint_left]
  intro i hi hi'
  have h1 := (flush0_4 t).mp hf
  have h2 := (flush0_4 t').mp hf'
  have h3 := t_lt t
  have h4 := t_lt t'
  have hv : t.val ≠ t'.val := fun e => hne (Fin.ext e)
  have a := mem_blk4 t i hi
  have b := mem_blk4 t' i hi'
  omega

/-- Entry (0, 0) of the result ends at entry (0, 0) of what the accumulator block holds after point 7. -/
theorem arr_cell0 (c : Dev nD) :
    (dats m 0 c).arrAt 4 cfg0.N (ValueIdx.ix2 (0 : Fin 16) (0 : Fin 128))
      = outsAt m c 7 (by rw [show cfg0.N = 16 from N_0]; decide) (ValueIdx.ix2 (0 : Fin 8) (0 : Fin 128)) := by
  have hf : (cfg0.win 4).flush t0_7 = true := (flush0_4 t0_7).mpr rfl
  have h := (dats m 0 c).arrAt_emb_eq_flushed 4 hdisj4 t0_7 hf (ValueIdx.ix2 (0 : Fin 8) (0 : Fin 128))
  have he : ((cfg0.win 4).blk t0_7).view.emb (ValueIdx.ix2 (0 : Fin 8) (0 : Fin 128))
      = ValueIdx.ix2 (0 : Fin 16) (0 : Fin 128) := by
    funext a
    apply Fin.ext
    match a with
    | ⟨0, _⟩ => show win0_4.index t0_7 0 * 8 + 1 * 0 = 0; rw [(idx4 t0_7).1]; rfl
    | ⟨1, _⟩ => show win0_4.index t0_7 1 * 128 + 1 * 0 = 0; rw [(idx4 t0_7).2]
  rw [he] at h
  rw [h]
  show (cfg0.win 4).cut _ ((dats m 0 c).after 4 t0_7) _ = _
  rw [after4]
  rfl

/-- Entry (8, 0) of the result ends at entry (0, 0) of what the accumulator block holds after point 15. -/
theorem arr_cell8 (c : Dev nD) :
    (dats m 0 c).arrAt 4 cfg0.N (ValueIdx.ix2 (8 : Fin 16) (0 : Fin 128))
      = outsAt m c 15 (by rw [show cfg0.N = 16 from N_0]; decide) (ValueIdx.ix2 (0 : Fin 8) (0 : Fin 128)) := by
  have hf : (cfg0.win 4).flush t0_15 = true := (flush0_4 t0_15).mpr rfl
  have h := (dats m 0 c).arrAt_emb_eq_flushed 4 hdisj4 t0_15 hf (ValueIdx.ix2 (0 : Fin 8) (0 : Fin 128))
  have he : ((cfg0.win 4).blk t0_15).view.emb (ValueIdx.ix2 (0 : Fin 8) (0 : Fin 128))
      = ValueIdx.ix2 (8 : Fin 16) (0 : Fin 128) := by
    funext a
    apply Fin.ext
    match a with
    | ⟨0, _⟩ => show win0_4.index t0_15 0 * 8 + 1 * 0 = 8; rw [(idx4 t0_15).1]; rfl
    | ⟨1, _⟩ => show win0_4.index t0_15 1 * 128 + 1 * 0 = 0; rw [(idx4 t0_15).2]
  rw [he] at h
  rw [h]
  show (cfg0.win 4).cut _ ((dats m 0 c).after 4 t0_15) _ = _
  rw [after4]
  rfl

end Cert.KernelIdeal.Frame

end
-- ==== Proof.Spec.lean ====
/-
  The quantity both programs compute, as one formula on the extended reals.

  For a point set given by its rows `a b` (`b` ranging over the 384 points, a row a vector over a finite
  index type) and query rows `q i`, the guarded Euclidean distance is
      dist q a i b = √(max(|q i|² + |a b|² − 2 ⟨q i, a b⟩, 0))   when that maximum exceeds the threshold ε,
                     0                                             otherwise.
  Over a distance table `D` the soft rank of point `a` among the neighbours of row `i` is
      rank D i a = 1 + Σ_b σ((D i b − D i a) / ½),        σ the logistic function,
  the intrusion is `max(rank − 5, 0)`, the soft top-k weight `min(1, max(0, (6 − rank) / 5))`, and the loss entry
      loss DX DZ i a = intrusion DX i a · (1 − weight DZ i a).
  The trustworthiness loss is a fixed constant times the sum of all loss entries. Every float literal is kept as the
  word both programs print, so the same word is never evaluated.
-/
import Idealize.ShloMosaic.PureOps.Ideal
import Idealize.ShloMosaic.Lib.ValueIdx

noncomputable section

namespace Cert.Spec

open Idealize.ShloMosaic

/-- An f32 word as the extended real it denotes. -/
abbrev lit (b : BitVec 32) : EReal := Ideal.ofBits .f32 b

/-- The guarded distance from the two squared norms and the inner product. -/
def dOf (sii sbb cr : EReal) : EReal :=
  Scalar.select (Ideal.cmp .ogt (max (sii + sbb - lit 0x40000000#32 * cr) (lit 0x00000000#32)) (lit 0x2B8CBCCC#32))
    (Ideal.sqrt (Scalar.select (Ideal.cmp .ogt (max (sii + sbb - lit 0x40000000#32 * cr) (lit 0x00000000#32)) (lit 0x2B8CBCCC#32))
      (max (sii + sbb - lit 0x40000000#32 * cr) (lit 0x00000000#32)) (lit 0x3F800000#32)))
    (lit 0x00000000#32)

variable {R K : Type} [Fintype K]

/-- The guarded Euclidean distance from query row `i` to point `b`. -/
def dist (q : R → K → EReal) (a : Fin 384 → K → EReal) (i : R) (b : Fin 384) : EReal :=
  dOf (∑ k, q i k * q i k) (∑ k, a b k * a b k) (∑ k, q i k * a b k)

/-- The soft rank of point `a` in row `i` of a distance table. -/
def rank (D : R → Fin 384 → EReal) (i : R) (a : Fin 384) : EReal :=
  lit 0x3F800000#32 + ∑ b : Fin 384, Ideal.logistic (Ideal.div (D i b - D i a) (lit 0x3F000000#32))

/-- How far the soft rank exceeds the neighbourhood size. -/
def intrusion (D : R → Fin 384 → EReal) (i : R) (a : Fin 384) : EReal :=
  max (rank D i a - lit 0x40A00000#32) (lit 0x00000000#32)

/-- The soft top-k weight. -/
def weight (D : R → Fin 384 → EReal) (i : R) (a : Fin 384) : EReal :=
  min (lit 0x3F800000#32) (max (lit 0x00000000#32) (Ideal.div (lit 0x40C00000#32 - rank D i a) (lit 0x40A00000#32)))

/-- One entry of the loss matrix. -/
def loss (DX DZ : R → Fin 384 → EReal) (i : R) (a : Fin 384) : EReal :=
  intrusion DX i a * (lit 0x3F800000#32 - weight DZ i a)

end Cert.Spec

end
-- ==== Proof.SpecLaws.lean ====
/-
  Laws of the shared specification: the values of the float words it spells, the doubling of both
  distances against the division by one half, the finiteness of the guarded distance at finite inputs,
  and the soft rank read with its 384 neighbours summed in three chunks of 128.
-/
import proofs.«182194_j5634997093005_2_alg».proof.Proof.Spec
import Mathlib.Algebra.BigOperators.Fin

noncomputable section

namespace Cert.Spec

open Idealize.ShloMosaic

/-! ### The float words -/

theorem lit_zero : lit 0x00000000#32 = 0 := by
  simp [Ideal.ofBits, Ideal.ieee]

theorem lit_one : lit 0x3F800000#32 = 1 := by
  rw [show (1 : EReal) = ((1 : ℝ) : EReal) by norm_cast]
  simp [Ideal.ofBits, Ideal.ieee, -EReal.coe_mul]; norm_num

theorem lit_two : lit 0x40000000#32 = ((2 : ℝ) : EReal) := by
  simp [Ideal.ofBits, Ideal.ieee, -EReal.coe_mul]; norm_num

theorem lit_half : lit 0x3F000000#32 = (((1/2 : ℝ)) : EReal) := by
  simp [Ideal.ofBits, Ideal.ieee, -EReal.coe_mul]; norm_num

theorem lit_five : lit 0x40A00000#32 = ((5 : ℝ) : EReal) := by
  simp [Ideal.ofBits, Ideal.ieee, -EReal.coe_mul]; norm_num

theorem lit_six : lit 0x40C00000#32 = ((6 : ℝ) : EReal) := by
  simp [Ideal.ofBits, Ideal.ieee, -EReal.coe_mul]; norm_num

/-- doubling both distances is dividing their difference by one half (reals only: the law fails at
    infinities) -/
theorem scaled_diff (u v : ℝ) :
    (u : EReal) * lit 0x40000000#32 - (v : EReal) * lit 0x40000000#32
      = Ideal.div ((u : EReal) - (v : EReal)) (lit 0x3F000000#32) := by
  rw [lit_two, lit_half, Ideal.div_coe (by norm_num : (1/2 : ℝ) ≠ 0)]
  rw [← EReal.coe_mul, ← EReal.coe_mul, ← EReal.coe_sub, ← EReal.coe_sub, ← EReal.coe_mul]
  congr 1; ring

/-! ### Finite values -/

/-- a finite sum of reals, read in the extended reals -/
theorem coe_sum {ι : Type} (s : Finset ι) (f : ι → ℝ) :
    ((∑ k ∈ s, f k : ℝ) : EReal) = ∑ k ∈ s, (f k : EReal) := by
  classical
  induction s using Finset.induction_on with
  | empty => simp
  | insert x s hx ih => rw [Finset.sum_insert hx, Finset.sum_insert hx, EReal.coe_add, ih]

/-- the guarded distance of real sums is real -/
theorem dOf_real (a b c : ℝ) : ∃ r : ℝ, dOf (a : EReal) (b : EReal) (c : EReal) = (r : EReal) := by
  have hm : max ((a : EReal) + (b : EReal) - lit 0x40000000#32 * (c : EReal)) (lit 0x00000000#32)
      = ((max (a + b - 2 * c) 0 : ℝ) : EReal) := by
    rw [lit_two, lit_zero, ← EReal.coe_mul, ← EReal.coe_add, ← EReal.coe_sub, ← EReal.coe_zero,
      EReal.coe_strictMono.monotone.map_max]
  unfold dOf
  rw [hm]
  unfold Scalar.select
  split_ifs with h
  · refine ⟨Real.sqrt (max (a + b - 2 * c) 0), ?_⟩
    rw [Ideal.sqrt_coe, if_neg (not_lt.mpr (le_max_right _ _))]
  · exact ⟨0, by rw [lit_zero, EReal.coe_zero]⟩

theorem dist_real {R K : Type} [Fintype K] (q : R → K → EReal) (a : Fin 384 → K → EReal)
    (hq : ∀ i k, ∃ r : ℝ, q i k = (r : EReal)) (ha : ∀ b k, ∃ r : ℝ, a b k = (r : EReal))
    (i : R) (b : Fin 384) : ∃ r : ℝ, dist q a i b = (r : EReal) := by
  choose qr hqr using hq
  choose ar har using ha
  have h1 : (∑ k, q i k * q i k) = ((∑ k, qr i k * qr i k : ℝ) : EReal) := by
    rw [coe_sum]; exact Finset.sum_congr rfl fun k _ => by rw [hqr, EReal.coe_mul]
  have h2 : (∑ k, a b k * a b k) = ((∑ k, ar b k * ar b k : ℝ) : EReal) := by
    rw [coe_sum]; exact Finset.sum_congr rfl fun k _ => by rw [har, EReal.coe_mul]
  have h3 : (∑ k, q i k * a b k) = ((∑ k, qr i k * ar b k : ℝ) : EReal) := by
    rw [coe_sum]; exact Finset.sum_congr rfl fun k _ => by rw [hqr, har, EReal.coe_mul]
  unfold dist
  rw [h1, h2, h3]
  exact dOf_real _ _ _

/-! ### The soft rank in chunks -/

/-- a sum over 384 points in three chunks of 128 -/
theorem sum_chunks {M : Type} [AddCommMonoid M] (f : Fin 384 → M) :
    ∑ b, f b = (∑ b : Fin 128, f ⟨b.val, by omega⟩) + (∑ b : Fin 128, f ⟨128 + b.val, by omega⟩)
      + (∑ b : Fin 128, f ⟨256 + b.val, by omega⟩) := by
  have h := Fin.sum_univ_add (a := 128 + 128) (b := 128) f
  rw [Fin.sum_univ_add (a := 128) (b := 128)] at h
  exact h

/-- the soft rank with both distances doubled first and the neighbours summed chunk by chunk, for a real
    distance table -/
theorem rank_scaled {R : Type} (D : R → Fin 384 → EReal) (hD : ∀ i b, ∃ r : ℝ, D i b = (r : EReal))
    (i : R) (a : Fin 384) :
    rank D i a = lit 0x3F800000#32
      + ((∑ b : Fin 128, Ideal.logistic (D i ⟨b.val, by omega⟩ * lit 0x40000000#32 - D i a * lit 0x40000000#32))
        + (∑ b : Fin 128, Ideal.logistic (D i ⟨128 + b.val, by omega⟩ * lit 0x40000000#32 - D i a * lit 0x40000000#32))
        + (∑ b : Fin 128, Ideal.logistic (D i ⟨256 + b.val, by omega⟩ * lit 0x40000000#32 - D i a * lit 0x40000000#32))) := by
  have key : ∀ b, Ideal.logistic (Ideal.div (D i b - D i a) (lit 0x3F000000#32))
      = Ideal.logistic (D i b * lit 0x40000000#32 - D i a * lit 0x40000000#32) := by
    intro b
    obtain ⟨u, hu⟩ := hD i b
    obtain ⟨v, hv⟩ := hD i a
    rw [hu, hv, scaled_diff]
  unfold rank
  simp only [key]
  rw [sum_chunks]

end Cert.Spec

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibRowReduce.lean ====
/-
  Reductions along the rows of a matrix, read at a row. At the exact values a lane reduction of an a×b matrix over its
  second axis is, at row r, the sum (for an add reduction) or the fold of max from the accumulator's value (for a
  maximum reduction) of the b entries (r, k) of that row; the host's reduce over the same axis is the same fold from its
  initial value, and its sum the initial value plus the same sum. A fold of max that starts at a value is at least that
  value, so taking the maximum with the start once more changes nothing.
-/
import Idealize.ShloMosaic.PureOps.Ideal.Laws
import Idealize.ShloMosaic.Lib.ValueIdx

noncomputable section

namespace RowReduce

open Idealize.ShloMosaic Idealize.ShloMosaic.ValueIdx

variable {a b : ℕ}

/-- The index a reduction over axis 1 reads at row `r` and position `k` is `(r, k)`. -/
theorem lift_eq (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- A lane sum over the second axis, at row `r`: the sum of that row's entries. -/
theorem laneSum_at (src : FVec Ideal ⟨2, ![a, b]⟩ .f32) (acc : BitVec 32) (h : (⟨2, ![a, b]⟩ : Shape).Reduces [1] ⟨1, ![a]⟩)
    (hφ : FKind.Formats .f32) (hacc : acc = FKind.add.neutral .f32 hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_eq h r k))

/-- A lane maximum over the second axis, at row `r`: the fold of max over that row's entries from the accumulator's value. -/
theorem laneMax_at (src : FVec Ideal ⟨2, ![a, b]⟩ .f32) (acc : BitVec 32) (h : (⟨2, ![a, b]⟩ : Shape).Reduces [1] ⟨1, ![a]⟩)
    (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) :=
  (Ideal.multiReduction_maximumf_single src acc h hφ hacc (ix1 r)).trans
    (congrArg (Finset.fold max (Ideal.ofBits .f32 acc) · (Finset.univ : Finset (Fin b)))
      (funext fun k => congrArg src (lift_eq h r k)))

/-- The host's sum over the second axis, at row `r`: the initial value plus the sum of that row's entries. -/
theorem hostSum_at {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd (F := Ideal) x init h' hu (ix1 r) = init (Shape.Idx.first hu) + ∑ k : Fin b, x (ix2 r k) := by
  simp only [Host.reduceAdd, Ideal.hostReduceAdd_def]
  rw [Ideal.hostReduceAdd_single h' h]
  exact congrArg (_ + ·) (Finset.sum_congr rfl fun k _ => congrArg x (lift_eq h r k))

/-- The host's maximum over the second axis, at row `r`: the fold of max over that row's entries from the initial value. -/
theorem hostMax_at {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) :=
  (Host.reduce_eq_fold_single (FloatOps.maximumf (F := Ideal) (φ := .f32)) x init h' h hu (ix1 r)).trans
    (congrArg (Finset.fold max (init (Shape.Idx.first hu)) · (Finset.univ : Finset (Fin b)))
      (funext fun k => congrArg x (lift_eq h r k)))

/-- A fold of max from `m₀` is at least `m₀`: the maximum with `m₀` once more is the fold itself. -/
theorem max_fold_self {ι : Type} (s : Finset ι) (m₀ : EReal) (f : ι → EReal) :
    max m₀ (s.fold max m₀ f) = s.fold max m₀ f :=
  max_eq_right ((Finset.le_fold_max (s := s) (b := m₀) (f := f) (c := m₀)).2 (Or.inl le_rfl))

end RowReduce

end
-- ==== Proof.LibKeepdimsColumn.lean ====
/-
  A column kept beside a matrix. A vector of a entries reshaped to an a×1 column reads its entry i at (i, 0); an a×1
  column broadcast along its unit axis to an a×b matrix reads, at (p, c), the column's entry p. Together they are how a
  per-row quantity (a row's maximum, a row's sum) is put back beside every entry of its row.
-/
import Idealize.ShloMosaic.Lib.ValueLayout

namespace KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.TileDist.lean ====
/-
  The distance stage of the kernel's body, read at one entry.

  For a tile of query rows x (24 of them) and all the point rows X (384 of them), both of width K, the body forms
      |x_r|² beside every column,   |X_b|² along every row,   and the product  x · Xᵀ  into a zero accumulator,
  and from them  max(|x_r|² + |X_b|² − 2 ⟨x_r, X_b⟩, 0), the guard against the threshold, the square root under the guard.
  Read at the entry (r, b) this is the specification's guarded distance from row r of the tile to point b; the body then
  doubles it (it divides differences of distances by one half by multiplying each distance by two beforehand).
-/
import proofs.«182194_j5634997093005_2_alg».proof.Proof.Spec
import proofs.«182194_j5634997093005_2_alg».proof.Proof.Gen.KernelIdeal.Skeleton
import proofs.«182194_j5634997093005_2_alg».proof.Proof.LibPlainMatmul
import proofs.«182194_j5634997093005_2_alg».proof.Proof.LibRowReduce
import proofs.«182194_j5634997093005_2_alg».proof.Proof.LibKeepdimsColumn
import Idealize.ShloMosaic.Lib.ValueLayout
import Idealize.ShloMosaic.Lib.Pipeline.Value

noncomputable section

namespace Cert.KernelIdeal.TileValue

open Cert.Spec Cert.KernelIdeal Idealize.ShloMosaic Idealize.ShloMosaic.ValueIdx
open Cert.KernelIdeal.Facts₀

/-! ## The three ingredients at an entry -/

/-- A row's sum of squares kept as a column and put beside every column: at (r, c) it is Σ_k v(r,k)². -/
theorem rowNorm_apply {a b K : ℕ} (v : FVec Ideal ⟨2, ![a, K]⟩ .f32) (acc : BitVec 32)
    (h1 : (⟨2, ![a, K]⟩ : Shape).Reduces [1] ⟨1, ![a]⟩) (hφ : FKind.Formats .f32) (hacc : acc = FKind.add.neutral .f32 hφ)
    (h2 : (⟨1, ![a]⟩ : Shape).ShapeCasts ⟨2, ![a, 1]⟩) (h3 : (⟨2, ![a, 1]⟩ : Shape).Broadcasts ⟨2, ![a, b]⟩)
    (r : Fin a) (c : Fin b) :
    broadcastTo ⟨2, ![a, b]⟩ (shapeCast ⟨2, ![a, 1]⟩ (multiReduction (F := Ideal) .add [1] ⟨1, ![a]⟩ (mulf v v) acc h1 hφ hacc) h2) h3 (ix2 r c)
      = ∑ k : Fin K, v (ix2 r k) * v (ix2 r k) :=
  (KeepdimsColumn.broadcastTo_a1_ab_apply _ h3 r c).trans
    ((KeepdimsColumn.shapeCast_a_a1_apply _ h2 r 0).trans (RowReduce.laneSum_at (mulf v v) acc h1 hφ hacc r))

/-- A column turned into a row without moving anything: a [b, 1] array cast to [1, b] reads, at (0, c), the operand at (c, 0). -/
theorem shapeCast_b1_1b_apply {α : Type} {b : ℕ} (x : (⟨2, ![b, 1]⟩ : Shape).Idx → α)
    (h : (⟨2, ![b, 1]⟩ : Shape).ShapeCasts ⟨2, ![1, b]⟩) (u : Fin 1) (c : Fin b) :
    shapeCast ⟨2, ![1, b]⟩ x h (ix2 u c) = x (ix2 c (0 : Fin 1)) :=
  shapeCast_apply x h _ _ (by
    have hu : u.val = 0 := by omega
    rw [Shape.rowMajor_val_two, Shape.rowMajor_val_two]
    show c.val * 1 + 0 = u.val * b + c.val
    rw [hu]; simp)

/-- A row's sum of squares of the second operand, laid along every row: at (r, c) it is Σ_k V(c,k)². -/
theorem colNorm_apply {a b K : ℕ} (V : FVec Ideal ⟨2, ![b, K]⟩ .f32) (acc : BitVec 32)
    (h1 : (⟨2, ![b, K]⟩ : Shape).Reduces [1] ⟨1, ![b]⟩) (hφ : FKind.Formats .f32) (hacc : acc = FKind.add.neutral .f32 hφ)
    (h2 : (⟨1, ![b]⟩ : Shape).ShapeCasts ⟨2, ![b, 1]⟩) (h3 : (⟨2, ![b, 1]⟩ : Shape).ShapeCasts ⟨2, ![1, b]⟩)
    (h4 : (⟨2, ![1, b]⟩ : Shape).Broadcasts ⟨2, ![a, b]⟩) (r : Fin a) (c : Fin b) :
    broadcastTo ⟨2, ![a, b]⟩ (shapeCast ⟨2, ![1, b]⟩ (shapeCast ⟨2, ![b, 1]⟩
        (multiReduction (F := Ideal) .add [1] ⟨1, ![b]⟩ (mulf V V) acc h1 hφ hacc) h2) h3) h4 (ix2 r c)
      = ∑ k : Fin K, V (ix2 c k) * V (ix2 c k) :=
  (broadcastTo_1b_ab_apply _ h4 r c).trans
    ((shapeCast_b1_1b_apply _ h3 0 c).trans
      ((KeepdimsColumn.shapeCast_a_a1_apply _ h2 c 0).trans (RowReduce.laneSum_at (mulf V V) acc h1 hφ hacc c)))

/-- The product of the tile with the transposed point rows, into the zero accumulator: at (r, c) it is Σ_k x(r,k) · V(c,k). -/
theorem gram_apply {a b K : ℕ} (x : FVec Ideal ⟨2, ![a, K]⟩ .f32) (V : FVec Ideal ⟨2, ![b, K]⟩ .f32)
    (prec : Option ContractPrecision) (ht : (⟨2, ![b, K]⟩ : Shape).Transposes [1, 0] ⟨2, ![K, b]⟩) (r : Fin a) (c : Fin b) :
    FloatOps.matmul (DotDims.plain a K b) prec x (transpose ⟨2, ![K, b]⟩ [1, 0] V ht) (constant (F := Ideal) ⟨2, ![a, b]⟩ .f32 0x00000000#32) (ix2 r c)
      = ∑ k : Fin K, x (ix2 r k) * V (ix2 c k) :=
  (PlainMatmul.apply_zero x (transpose ⟨2, ![K, b]⟩ [1, 0] V ht) r c).trans
    (Finset.sum_congr rfl fun k _ => congrArg (x (ix2 r k) * ·) (transpose_ix2_apply V ht k c))

/-! ## The doubled guarded distance of the first pair of operands -/

/-- The body's doubled distance table of the tile x against the rows X, at (r, b): twice the specification's distance. -/
theorem pay3_apply (x : Vec Ideal S24x128 .f32) (X : Vec Ideal S384x128 .f32) (r : Fin 24) (b : Fin 384) :
    Gen.k0_pay3 (F := Ideal) x X (ix2 r b)
      = Spec.dist (fun (r : Fin 24) (k : Fin 128) => x (ix2 r k)) (fun b k => X (ix2 b k)) r b * lit 0x40000000#32 := by
  have hA := rowNorm_apply (b := 384) (x : FVec Ideal S24x128 .f32) 0x00000000#32 reduces_S24x128_S24 (.inl rfl) rfl
    shapeCasts_S24_S24x1 broadcasts_S24x1_S24x384 r b
  have hB := colNorm_apply (a := 24) (X : FVec Ideal S384x128 .f32) 0x00000000#32 reduces_S384x128_S384 (.inl rfl) rfl
    shapeCasts_S384_S384x1 shapeCasts_S384x1_S1x384 broadcasts_S1x384_S24x384 r b
  have hC := gram_apply (x : FVec Ideal S24x128 .f32) (X : FVec Ideal S384x128 .f32) (some .fp32)
    transposes_S384x128_p1_0_S128x384 r b
  unfold Spec.dist
  rw [← hA, ← hB, ← hC]
  rfl

/-- The second pair of operands, up to the clamp at zero: max(|z_r|² + |Z_b|² − 2 ⟨z_r, Z_b⟩, 0) at (r, b). -/
theorem pay7_apply (z : Vec Ideal S24x32 .f32) (Z : Vec Ideal S384x32 .f32) (r : Fin 24) (b : Fin 384) :
    Gen.k0_pay7 (F := Ideal) z Z (ix2 r b)
      = max ((∑ k : Fin 32, z (ix2 r k) * z (ix2 r k)) + (∑ k : Fin 32, Z (ix2 b k) * Z (ix2 b k))
          - lit 0x40000000#32 * ∑ k : Fin 32, z (ix2 r k) * Z (ix2 b k)) (lit 0x00000000#32) := by
  have hA := rowNorm_apply (b := 384) (z : FVec Ideal S24x32 .f32) 0x00000000#32 reduces_S24x32_S24 (.inl rfl) rfl
    shapeCasts_S24_S24x1 broadcasts_S24x1_S24x384 r b
  have hB := colNorm_apply (a := 24) (Z : FVec Ideal S384x32 .f32) 0x00000000#32 reduces_S384x32_S384 (.inl rfl) rfl
    shapeCasts_S384_S384x1 shapeCasts_S384x1_S1x384 broadcasts_S1x384_S24x384 r b
  have hC := gram_apply (z : FVec Ideal S24x32 .f32) (Z : FVec Ideal S384x32 .f32) (some .fp32)
    transposes_S384x32_p1_0_S32x384 r b
  rw [← hA, ← hB, ← hC]
  rfl

end Cert.KernelIdeal.TileValue

end
-- ==== Proof.LibLaneSum.lean ====
/-
  Two readings at an index written by coordinates, for a body that weights the last ("lane") axis of a rank-3 array by a
  vector and then sums that axis away.

  • A vector seen as a rank-3 array, [c] → [1, 1, c], reads (·, ·, d) at d: a shape cast keeps the row-major position,
    and the two unit axes contribute nothing to it.
  • That array broadcast along both leading axes, [1, 1, c] → [a, b, c], reads (p, q, d) at (0, 0, d).
  • At the exact (extended-real) values, the sum of an [a, b, c] array over its last axis, read at (p, q), is the sum
    over d of the entries (p, q, d): the source index over (p, q) with d inserted on the summed axis is (p, q, d).
-/
import Idealize.ShloMosaic.Lib.ValueLayout
import Idealize.ShloMosaic.PureOps.Ideal.Laws

namespace Cert.LibLaneSum

open Idealize.ShloMosaic Idealize.ShloMosaic.ValueIdx

variable {α : Type}

/-- A `[c]` vector cast to `[1, 1, c]` reads, at `(u, v, d)`, the operand at `d`, whatever the unit coordinates. -/
theorem shapeCast_c_11c_apply {c : ℕ} (x : (⟨1, ![c]⟩ : Shape).Idx → α)
    (h : (⟨1, ![c]⟩ : Shape).ShapeCasts ⟨3, ![1, 1, c]⟩) (u v : Fin 1) (d : Fin c) :
    shapeCast ⟨3, ![1, 1, c]⟩ x h (ix3 u v d) = x (ix1 d) :=
  shapeCast_apply x h _ _ (by
    have hu : u.val = 0 := by omega
    have hv : v.val = 0 := by omega
    rw [Shape.rowMajor_val_one, Shape.rowMajor_val_three]
    show d.val = (u.val * 1 + v.val) * c + d.val
    rw [hu, hv]
    simp)

/-- A `[1, 1, c]` array broadcast to `[a, b, c]` reads, at `(p, q, d)`, the operand at `(0, 0, d)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (d : Fin c) :
    broadcastTo ⟨3, ![a, b, c]⟩ v h (ix3 p q d) = v (ix3 (0 : Fin 1) (0 : Fin 1) d) := by
  refine broadcastTo_apply v h (ix3 p q d) (ix3 (0 : Fin 1) (0 : Fin 1) d) fun ax => ?_
  match ax with
  | ⟨0, _⟩ => rfl
  | ⟨1, _⟩ => rfl
  | ⟨2, _⟩ =>
    show d.val = if c = 1 then 0 else d.val
    split
    · have := d.isLt; omega
    · rfl

/-- Over the result index `(p, q)` of a sum along the last axis of an `[a, b, c]` array, the source index with `d` on
    the summed axis is `(p, q, d)`. -/
theorem lift_last_ix3 {a b c : ℕ} (h : (⟨3, ![a, b, c]⟩ : Shape).Reduces [2] ⟨2, ![a, b]⟩) (p : Fin a) (q : Fin b) (d : Fin c) :
    h.lift (ix2 p q) d = ix3 p q d := by
  funext ax
  match ax with
  | ⟨0, _⟩ => rfl
  | ⟨1, _⟩ => rfl
  | ⟨2, _⟩ => rfl

/-- At the exact values, an `<add>` reduction of an `[a, b, c]` array along its last axis, read at `(p, q)`, is the sum
    over `d` of the entries `(p, q, d)`. The accumulator word's side condition is taken in whatever spelling the
    caller's term carries it. -/
theorem multiReduction_add_last_apply {φ : FTy} {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ d : Fin c, src (ix3 p q d) := by
  refine (Ideal.multiReduction_add_single src acc h hφ hacc (ix2 p q)).trans ?_
  exact Finset.sum_congr rfl fun d _ => congrArg src (lift_last_ix3 h p q d)

end Cert.LibLaneSum
-- ==== Proof.TileRank.lean ====
/-
  The soft-rank stage of the kernel's body, read at one entry.

  From a table T of doubled distances (24 rows, 384 columns) the body forms, for each of the three chunks of 128
  neighbours, the 24×384×128 array  σ(T(r, o + d) − T(r, a))  — the chunk's slice laid along the last axis, the whole table
  along the middle one — and sums the last axis away. At (r, a) one chunk is  Σ_d σ(T(r, o + d) − T(r, a)).  One plus the three
  chunks (added to a zero start) is the specification's soft rank, since subtracting doubled distances is dividing
  their difference by one half; the clamps around it are the specification's intrusion and soft top-k weight.
-/
import proofs.«182194_j5634997093005_2_alg».proof.Proof.SpecLaws
import proofs.«182194_j5634997093005_2_alg».proof.Proof.TileDist
import proofs.«182194_j5634997093005_2_alg».proof.Proof.LibLaneSum

noncomputable section

namespace Cert.KernelIdeal.TileValue

open Cert.Spec Cert.KernelIdeal Idealize.ShloMosaic Idealize.ShloMosaic.ValueIdx
open Cert.KernelIdeal.Facts₀

/-! ## Layout: a slice along the lanes, the table along the middle axis -/

/-- An [a, c] array cast to [a, 1, c] reads, at (p, u, d), the operand at (p, d). -/
theorem shapeCast_ac_a1c_apply {α : Type} {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_two, Shape.rowMajor_val_three]
    show p.val * c + d.val = (p.val * 1 + u.val) * c + d.val
    rw [hu]; simp)

/-- An [a, b] array cast to [a, b, 1] reads, at (p, q, u), the operand at (p, q). -/
theorem shapeCast_ab_ab1_apply {α : Type} {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu]; simp)

/-- An [a, 1, c] array broadcast to [a, b, c] reads, at (p, q, d), the operand at (p, 0, d). -/
theorem broadcastTo_a1c_abc_apply {α : Type} {a b c : ℕ} (v : (⟨3, ![a, 1, c]⟩ : Shape).Idx → α)
    (h : (⟨3, ![a, 1, c]⟩ : Shape).Broadcasts ⟨3, ![a, b, c]⟩) (p : Fin a) (q : Fin b) (d : Fin c) :
    broadcastTo ⟨3, ![a, b, c]⟩ v h (ix3 p q d) = v (ix3 p (0 : Fin 1) d) := by
  refine broadcastTo_apply v h (ix3 p q d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- An [a, b, 1] array broadcast to [a, b, c] reads, at (p, q, d), the operand at (p, q, 0). -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (p : Fin a) (q : Fin b) (d : Fin c) :
    broadcastTo ⟨3, ![a, b, c]⟩ v h (ix3 p q d) = v (ix3 p q (0 : Fin 1)) := by
  refine broadcastTo_apply v h (ix3 p q d) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## One chunk of the soft-rank sum -/

/-- One chunk of the body's soft-rank sum over a table of doubled distances: the slice of 128 columns from o along the
    lanes, minus the table along the middle axis, through the logistic function, summed over the lanes. -/
def chunkSum (o : ℕ) (hs : S24x384.Slices ![0, o] S24x128) (T : FVec Ideal S24x384 .f32) : FVec Ideal S24x384 .f32 :=
  multiReduction (F := Ideal) .add [2] S24x384 (logistic (subf
    (broadcastTo S24x384x128 (shapeCast S24x1x128 (extractStridedSlice S24x128 ![0, o] T hs) shapeCasts_S24x128_S24x1x128)
      broadcasts_S24x1x128_S24x384x128)
    (broadcastTo S24x384x128 (shapeCast S24x384x1 T shapeCasts_S24x384_S24x384x1) broadcasts_S24x384x1_S24x384x128)))
    0x00000000#32 reduces_S24x384x128_S24x384 (.inl rfl) rfl

/-- At (r, a) a chunk is Σ_d σ(T(r, k d) − T(r, a)), k d the column o + d. -/
theorem chunkSum_apply (o : ℕ) (hs : S24x384.Slices ![0, o] S24x128) (T : FVec Ideal S24x384 .f32)
    (k : Fin 128 → Fin 384) (hk : ∀ d, (k d).val = o + d.val) (r : Fin 24) (a : Fin 384) :
    chunkSum o hs T (ix2 r a) = ∑ d : Fin 128, Ideal.logistic (T (ix2 r (k d)) - T (ix2 r a)) := by
  unfold chunkSum
  refine (Cert.LibLaneSum.multiReduction_add_last_apply _ _ reduces_S24x384x128_S24x384 _ _ r a).trans ?_
  refine Finset.sum_congr rfl fun d _ => ?_
  show Ideal.logistic (_ - _) = _
  have e1 := (broadcastTo_a1c_abc_apply
      (shapeCast S24x1x128 (extractStridedSlice S24x128 ![0, o] T hs) shapeCasts_S24x128_S24x1x128)
      broadcasts_S24x1x128_S24x384x128 r a d).trans
    ((shapeCast_ac_a1c_apply (extractStridedSlice S24x128 ![0, o] T hs) shapeCasts_S24x128_S24x1x128 r 0 d).trans
      (slice2_axis1_apply o T hs r d (k d) (hk d)))
  have e2 := (broadcastTo_ab1_abc_apply (shapeCast S24x384x1 T shapeCasts_S24x384_S24x384x1)
      broadcasts_S24x384x1_S24x384x128 r a d).trans
    (shapeCast_ab_ab1_apply T shapeCasts_S24x384_S24x384x1 r a 0)
  rw [e1, e2]

/-- One plus the three chunks added to a zero start is the soft rank, when the table is a real distance table doubled. -/
theorem rank_of_chunks (D : Fin 24 → Fin 384 → EReal) (hD : ∀ i b, ∃ t : ℝ, D i b = (t : EReal))
    (T : FVec Ideal S24x384 .f32) (hT : ∀ r b, T (ix2 r b) = D r b * lit 0x40000000#32) (r : Fin 24) (a : Fin 384) :
    lit 0x3F800000#32 + (lit 0x00000000#32 + chunkSum 0 slices_S24x384_o0_0_S24x128 T (ix2 r a)
        + chunkSum 128 slices_S24x384_o0_128_S24x128 T (ix2 r a)
        + chunkSum 256 slices_S24x384_o0_256_S24x128 T (ix2 r a))
      = rank D r a := by
  rw [rank_scaled D hD r a, lit_zero, zero_add,
    chunkSum_apply 0 _ T (fun d => ⟨d.val, by omega⟩) (fun d => (Nat.zero_add _).symm) r a,
    chunkSum_apply 128 _ T (fun d => ⟨128 + d.val, by omega⟩) (fun d => rfl) r a,
    chunkSum_apply 256 _ T (fun d => ⟨256 + d.val, by omega⟩) (fun d => rfl) r a]
  simp only [hT]

/-! ## The payloads -/

/-- The first chunk of the first table, as the body first computes it. -/
theorem pay5_eq (x : Vec Ideal S24x128 .f32) (X : Vec Ideal S384x128 .f32) :
    Gen.k0_pay5 (F := Ideal) x X = chunkSum 0 slices_S24x384_o0_0_S24x128 (Gen.k0_pay3 (F := Ideal) x X) := rfl

/-- The intrusion stage over any table, zero start and first chunk: the clamp of one plus the chunks minus five. -/
theorem pay6_eq (T v31 v39 : FVec Ideal S24x384 .f32) (i : S24x384.Idx) :
    Gen.k0_pay6 (F := Ideal) T v31 v39 i
      = max (lit 0x3F800000#32 + (v31 i + v39 i + chunkSum 128 slices_S24x384_o0_128_S24x128 T i
          + chunkSum 256 slices_S24x384_o0_256_S24x128 T i) - lit 0x40A00000#32) (lit 0x00000000#32) := rfl

/-- The body's intrusion of the first table at (r, a) is the specification's. -/
theorem pay6_apply (x : Vec Ideal S24x128 .f32) (X : Vec Ideal S384x128 .f32)
    (hx : ∀ i, ∃ t : ℝ, x i = (t : EReal)) (hX : ∀ i, ∃ t : ℝ, X i = (t : EReal)) (r : Fin 24) (a : Fin 384) :
    Gen.k0_pay6 (F := Ideal) (Gen.k0_pay3 x X) Gen.k0_pay4 (Gen.k0_pay5 x X) (ix2 r a)
      = intrusion (Spec.dist (fun (r : Fin 24) (k : Fin 128) => x (ix2 r k)) (fun b k => X (ix2 b k))) r a := by
  rw [pay6_eq, pay5_eq]
  unfold intrusion
  refine congrArg (fun t => max (t - lit 0x40A00000#32) (lit 0x00000000#32)) ?_
  exact rank_of_chunks _ (dist_real _ _ (fun i k => hx _) (fun b k => hX _)) (Gen.k0_pay3 x X)
    (pay3_apply x X) r a

/-- The second table doubled, from its clamped squared distances and the threshold: the guard, the square root under the
    guard, times two. -/
def table2 (v83 v84 : FVec Ideal S24x384 .f32) : FVec Ideal S24x384 .f32 :=
  mulf (select (cmpf .ogt v83 v84)
      (sqrt (select (cmpf .ogt v83 v84) v83 (broadcast S24x384 (Scalar.ofBits (F := Ideal) .f32 0x3F800000#32))))
      (broadcast S24x384 (Scalar.ofBits (F := Ideal) .f32 0x00000000#32)))
    (broadcast S24x384 (Scalar.ofBits (F := Ideal) .f32 0x40000000#32))

/-- The weight stage over the second table: the clamp to [0, 1] of (six minus one plus the chunks) over five. -/
theorem pay9_eq (v83 v84 : FVec Ideal S24x384 .f32) (i : S24x384.Idx) :
    Gen.k0_pay9 (F := Ideal) v83 v84 i
      = min (lit 0x3F800000#32) (max (lit 0x00000000#32) (Ideal.div (lit 0x40C00000#32
          - (lit 0x3F800000#32 + (lit 0x00000000#32 + chunkSum 0 slices_S24x384_o0_0_S24x128 (table2 v83 v84) i
            + chunkSum 128 slices_S24x384_o0_128_S24x128 (table2 v83 v84) i
            + chunkSum 256 slices_S24x384_o0_256_S24x128 (table2 v83 v84) i))) (lit 0x40A00000#32))) := rfl

/-- The second table doubled, at (r, b): twice the specification's distance. -/
theorem table2_apply (z : Vec Ideal S24x32 .f32) (Z : Vec Ideal S384x32 .f32) (r : Fin 24) (b : Fin 384) :
    table2 (Gen.k0_pay7 (F := Ideal) z Z) Gen.k0_pay8 (ix2 r b)
      = Spec.dist (fun (r : Fin 24) (k : Fin 32) => z (ix2 r k)) (fun b k => Z (ix2 b k)) r b * lit 0x40000000#32 := by
  unfold Spec.dist dOf
  rw [← pay7_apply z Z r b]
  rfl

/-- The body's soft top-k weight of the second table at (r, a) is the specification's. -/
theorem pay9_apply (z : Vec Ideal S24x32 .f32) (Z : Vec Ideal S384x32 .f32)
    (hz : ∀ i, ∃ t : ℝ, z i = (t : EReal)) (hZ : ∀ i, ∃ t : ℝ, Z i = (t : EReal)) (r : Fin 24) (a : Fin 384) :
    Gen.k0_pay9 (F := Ideal) (Gen.k0_pay7 z Z) Gen.k0_pay8 (ix2 r a)
      = weight (Spec.dist (fun (r : Fin 24) (k : Fin 32) => z (ix2 r k)) (fun b k => Z (ix2 b k))) r a := by
  rw [pay9_eq]
  unfold weight
  refine congrArg (fun t => min (lit 0x3F800000#32) (max (lit 0x00000000#32)
    (Ideal.div (lit 0x40C00000#32 - t) (lit 0x40A00000#32)))) ?_
  exact rank_of_chunks _ (dist_real _ _ (fun i k => hz _) (fun b k => hZ _)) _ (table2_apply z Z) r a

end Cert.KernelIdeal.TileValue

end
-- ==== Proof.TileValue.lean ====
/-
  One step of the kernel's body, as a value.

  At one grid point the body holds a tile x of 24 rows of X with all of X, the matching tile z of Z with all of Z, and the
  8×128 accumulator block. It forms the 24×384 loss entries  intrusion(x-distances) · (1 − weight(z-distances)),
  sums them over the columns and then over the rows to one number, puts that number at the block's entry (0, 0) — a
  select on "row coordinate is 0 and lane coordinate is 0" against a zero block — and adds the result to the accumulator.
  So the stored block is the accumulator plus, at (0, 0) only, the tile's total loss.
-/
import proofs.«182194_j5634997093005_2_alg».proof.Proof.TileRank

noncomputable section

namespace Cert.KernelIdeal.TileValue

open Cert.Spec Cert.KernelIdeal Idealize.ShloMosaic Idealize.ShloMosaic.ValueIdx
open Cert.KernelIdeal.Facts₀

/-! ## The mask of the block's first entry -/

/-- A coordinate below 2³² compared with the zero word: the bit is set exactly when the coordinate is zero. -/
theorem cmpi_eq_zero (n : ℕ) (hn : n < 2 ^ 32) :
    IntOp.cmpi .eq (BitVec.ofNat 32 n) 0#32 = if n = 0 then 1#1 else 0#1 := by
  unfold IntOp.cmpi
  by_cases h : n = 0
  · subst h; rfl
  · rw [if_neg h]
    have hne : BitVec.ofNat 32 n ≠ 0#32 := fun e => h (by
      have := congrArg BitVec.toNat e
      rw [BitVec.toNat_ofNat, Nat.mod_eq_of_lt hn] at this
      exact this)
    show BitVec.ofBool (BitVec.ofNat 32 n == 0#32) = 0#1
    rw [beq_eq_false_iff_ne.mpr hne]
    rfl

/-- A select on "both coordinates are zero" is the `if`. -/
theorem select_both_zero {α : Type} (m n : ℕ) (hm : m < 2 ^ 32) (hn : n < 2 ^ 32) (A B : α) :
    Scalar.select (IntOp.andi (IntOp.cmpi .eq (BitVec.ofNat 32 m) 0#32) (IntOp.cmpi .eq (BitVec.ofNat 32 n) 0#32)) A B
      = if m = 0 ∧ n = 0 then A else B := by
  rw [cmpi_eq_zero m hm, cmpi_eq_zero n hn]
  by_cases h0 : m = 0 <;> by_cases h1 : n = 0
  · rw [if_pos h0, if_pos h1, if_pos ⟨h0, h1⟩]; rfl
  · rw [if_pos h0, if_neg h1, if_neg (fun h => h1 h.2)]; rfl
  · rw [if_neg h0, if_pos h1, if_neg (fun h => h0 h.1)]; rfl
  · rw [if_neg h0, if_neg h1, if_neg (fun h => h0 h.1)]; rfl

/-! ## A column of row totals summed to one number -/

/-- The index a reduction over axis 0 of an [a, 1] column reads at position k is (k, ·). -/
theorem lift_axis0_eq {a : ℕ} (h : (⟨2, ![a, 1]⟩ : Shape).Reduces [0] ⟨1, ![1]⟩) (u : Fin 1) (k : Fin a) :
    h.lift (ix1 u) k = ix2 k u :=
  funext fun ax => Fin.ext (by match ax with | ⟨0, _⟩ => rfl | ⟨1, _⟩ => rfl)

/-- A column's sum over its rows: at the one entry, the sum of the column's entries. -/
theorem colSum_apply {a : ℕ} (src : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ)
    (u : Fin 1) :
    multiReduction (F := Ideal) .add [0] ⟨1, ![1]⟩ src acc h hφ hacc (ix1 u) = ∑ k : Fin a, src (ix2 k u) :=
  (Ideal.multiReduction_add_single src acc h hφ hacc (ix1 u)).trans
    (Finset.sum_congr rfl fun k _ => congrArg src (lift_axis0_eq h u k))

/-- A one-entry vector seen as a 1×1 matrix. -/
theorem shapeCast_1_11_apply {α : Type} (x : (⟨1, ![1]⟩ : Shape).Idx → α)
    (h : (⟨1, ![1]⟩ : Shape).ShapeCasts ⟨2, ![1, 1]⟩) (u v : Fin 1) :
    shapeCast ⟨2, ![1, 1]⟩ x h (ix2 u v) = x (ix1 (0 : Fin 1)) :=
  shapeCast_apply x h _ _ (by
    have hu : u.val = 0 := by omega
    have hv : v.val = 0 := by omega
    rw [Shape.rowMajor_val_one, Shape.rowMajor_val_two]
    show 0 = u.val * 1 + v.val
    rw [hu, hv])

/-- A 1×1 matrix broadcast to a block reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) :=
  broadcastTo_apply v h (ix2 p q) (ix2 (0 : Fin 1) (0 : Fin 1)) fun ax => by
    match ax with
    | ⟨0, _⟩ => rfl
    | ⟨1, _⟩ => rfl

/-! ## The stored block -/

/-- The mask of the block's first entry: row coordinate zero and lane coordinate zero. -/
def firstEntry : IVec S8x128 1 :=
  andi (cmpi .eq (iota .tc S8x128 32 [0] iota_S8x128_d0_w32) (broadcast S8x128 0#32))
    (cmpi .eq (iota .tc S8x128 32 [1] iota_S8x128_d1_w32) (broadcast S8x128 0#32))

/-- The mask at (p, q) compares the two coordinates with zero. -/
theorem firstEntry_apply (p : Fin 8) (q : Fin 128) :
    firstEntry (ix2 p q)
      = IntOp.andi (IntOp.cmpi .eq (BitVec.ofNat 32 p.val) 0#32) (IntOp.cmpi .eq (BitVec.ofNat 32 q.val) 0#32) := by
  show IntOp.andi (IntOp.cmpi .eq (BitVec.ofNat 32 (0 * 8 + p.val)) 0#32)
    (IntOp.cmpi .eq (BitVec.ofNat 32 (0 * 128 + q.val)) 0#32) = _
  simp only [Nat.zero_mul, Nat.zero_add]

/-- The total the body broadcasts over the block: a table summed over its columns, the column of row totals summed over
    the rows, the one number seen as a 1×1 matrix and spread over the block. -/
def tileTotal (W : FVec Ideal S24x384 .f32) : FVec Ideal S8x128 .f32 :=
  broadcastTo S8x128 (shapeCast S1x1 (shapeCast S1x1 (multiReduction (F := Ideal) .add [0] S1
      (shapeCast S24x1 (multiReduction (F := Ideal) .add [1] S24 W 0x00000000#32 reduces_S24x384_S24 (.inl rfl) rfl)
        shapeCasts_S24_S24x1) 0x00000000#32 reduces_S24x1_S1 (.inl rfl) rfl) shapeCasts_S1_S1x1) shapeCasts_S1x1_S1x1)
    broadcasts_S1x1_S8x128

/-- Everywhere on the block the total is Σ_r Σ_a W(r, a). -/
theorem tileTotal_apply (W : FVec Ideal S24x384 .f32) (p : Fin 8) (q : Fin 128) :
    tileTotal W (ix2 p q) = ∑ r : Fin 24, ∑ a : Fin 384, W (ix2 r a) := by
  unfold tileTotal
  refine (broadcastTo_11_ab_apply _ broadcasts_S1x1_S8x128 p q).trans ?_
  rw [shapeCast_self]
  refine (shapeCast_1_11_apply _ shapeCasts_S1_S1x1 0 0).trans ?_
  refine (colSum_apply _ _ reduces_S24x1_S1 _ _ 0).trans ?_
  refine Finset.sum_congr rfl fun r _ => ?_
  exact (KeepdimsColumn.shapeCast_a_a1_apply _ shapeCasts_S24_S24x1 r 0).trans
    (RowReduce.laneSum_at W _ reduces_S24x384_S24 _ _ r)

/-- The stored block as one term: the accumulator plus the total under the mask, zero elsewhere. -/
theorem pay1_eq (v64 v130 v131 : FVec Ideal S24x384 .f32) (acc : Vec Ideal S8x128 .f32) :
    Gen.k0_pay1 (F := Ideal) v64 v130 v131 acc
      = addf (shapeCast S8x128 acc shapeCasts_S8x128_S8x128)
          (select firstEntry (tileTotal (mulf v64 (subf v131 v130)))
            (broadcast S8x128 (Scalar.ofBits (F := Ideal) .f32 0x00000000#32))) := rfl

/-- The body's stored block over any intrusion, weight and ones tables: the accumulator plus, at (0, 0) only, the sum of
    intrusion · (one − weight) over the tile. -/
theorem pay1_apply (v64 v130 v131 : FVec Ideal S24x384 .f32) (acc : Vec Ideal S8x128 .f32) (p : Fin 8) (q : Fin 128) :
    Gen.k0_pay1 (F := Ideal) v64 v130 v131 acc (ix2 p q)
      = acc (ix2 p q) + (if p.val = 0 ∧ q.val = 0 then
          ∑ r : Fin 24, ∑ a : Fin 384, v64 (ix2 r a) * (v131 (ix2 r a) - v130 (ix2 r a)) else 0) := by
  rw [pay1_eq, shapeCast_self]
  show acc (ix2 p q) + Scalar.select (firstEntry (ix2 p q)) (tileTotal (mulf v64 (subf v131 v130)) (ix2 p q))
    (lit 0x00000000#32) = _
  rw [firstEntry_apply, tileTotal_apply, lit_zero,
    select_both_zero p.val q.val (by have := p.isLt; omega) (by have := q.isLt; omega)]
  rfl

/-! ## The step -/

/-- ONE STEP OF THE BODY: the stored block is the accumulator plus, at entry (0, 0) only, the tile's total of the
    specification's loss entries between the tile's rows and all the points. -/
theorem tile_value (x : Vec Ideal S24x128 .f32) (X : Vec Ideal S384x128 .f32) (z : Vec Ideal S24x32 .f32)
    (Z : Vec Ideal S384x32 .f32) (acc : Vec Ideal S8x128 .f32)
    (hx : ∀ i, ∃ r : ℝ, x i = (r : EReal)) (hX : ∀ i, ∃ r : ℝ, X i = (r : EReal))
    (hz : ∀ i, ∃ r : ℝ, z i = (r : EReal)) (hZ : ∀ i, ∃ r : ℝ, Z i = (r : EReal))
    (p : Fin 8) (q : Fin 128) :
    Gen.k0_pay1 (F := Ideal) (Gen.k0_pay6 (Gen.k0_pay3 x X) Gen.k0_pay4 (Gen.k0_pay5 x X))
        (Gen.k0_pay9 (Gen.k0_pay7 z Z) Gen.k0_pay8) Gen.k0_pay10 acc (ix2 p q)
      = acc (ix2 p q) + (if p.val = 0 ∧ q.val = 0 then
          ∑ r : Fin 24, ∑ a : Fin 384,
            loss (Spec.dist (fun (r : Fin 24) (k : Fin 128) => x (ix2 r k)) (fun b k => X (ix2 b k)))
              (Spec.dist (fun (r : Fin 24) (k : Fin 32) => z (ix2 r k)) (fun b k => Z (ix2 b k))) r a
        else 0) := by
  rw [pay1_apply]
  refine congrArg (fun t => acc (ix2 p q) + (if p.val = 0 ∧ q.val = 0 then t else 0)) ?_
  refine Finset.sum_congr rfl fun r _ => Finset.sum_congr rfl fun a _ => ?_
  rw [pay6_apply x X hx hX r a, pay9_apply z Z hz hZ r a]
  rfl

/-- The reset the first step of a row of the grid stores: the zero block. -/
theorem reset_value (p : Fin 8) (q : Fin 128) : Gen.k0_pay2 (F := Ideal) (ix2 p q) = 0 :=
  lit_zero

end Cert.KernelIdeal.TileValue

end
-- ==== Proof.LibBlockSums.lean ====
/-
  Finite sums regrouped into blocks. A sum over the m·n indices 0, …, m·n − 1 is the sum over the m blocks of n
  consecutive indices of the sums inside each block: index i·n + j is entry j of block i. Nothing is asked of the
  summands beyond commutative addition, so the regrouping holds on the extended reals without any finiteness.
-/
import Mathlib

noncomputable section

namespace BlockSums

open Finset

/-- A sum over Fin N, N = m·n, regrouped into m blocks of n: g i j is any naming of index i·n + j. -/
theorem sum_blocks {M : Type*} [AddCommMonoid M] {m n N : ℕ} (hN : N = m * n) (g : Fin m → Fin n → Fin N)
    (hg : ∀ i j, (g i j).val = i.val * n + j.val) (f : Fin N → M) :
    ∑ r, f r = ∑ i : Fin m, ∑ j : Fin n, f (g i j) := by
  subst hN
  have hp : ∀ p : Fin m × Fin n, g p.1 p.2 = finProdFinEquiv p := fun p =>
    Fin.ext (by rw [hg, finProdFinEquiv_apply_val, Nat.mul_comm, Nat.add_comm])
  calc ∑ r, f r = ∑ p : Fin m × Fin n, f (finProdFinEquiv p) := (Equiv.sum_comp finProdFinEquiv f).symm
    _ = ∑ p : Fin m × Fin n, f (g p.1 p.2) := by simp only [hp]
    _ = ∑ i : Fin m, ∑ j : Fin n, f (g i j) := Fintype.sum_prod_type _

end BlockSums

end
-- ==== Proof.LibTileSums.lean ====
/-
  A sum over 384 rows regrouped by the way the rows are dealt out: 2 cores, 8 tiles on each core, 24 rows in each
  tile, row 24·(8·c + j) + r being row r of tile j of core c. The regrouping is the block regrouping of a finite sum
  applied twice (384 = 16·24 rows into 16 tiles, then 16 = 2·8 tiles into 2 cores); nothing is asked of the summands
  beyond commutative addition, so it holds on the extended reals without any finiteness.
-/
import Mathlib
import proofs.«182194_j5634997093005_2_alg».proof.Proof.LibBlockSums

noncomputable section

namespace Cert.LibTileSums

/-- a sum over 384 rows as a sum over 2 cores, 8 tiles per core, 24 rows per tile -/
theorem sum_tiles {M : Type} [AddCommMonoid M] (f : Fin 384 → M) :
    ∑ p, f p = ∑ c : Fin 2, ∑ j : Fin 8, ∑ r : Fin 24, f ⟨24 * (8 * c.val + j.val) + r.val, by omega⟩ := by
  rw [BlockSums.sum_blocks (m := 16) (n := 24) (by norm_num)
    (fun t r => (⟨24 * t.val + r.val, by omega⟩ : Fin 384)) (fun t r => by simp [Nat.mul_comm]) f]
  rw [BlockSums.sum_blocks (m := 2) (n := 8) (by norm_num)
    (fun c j => (⟨8 * c.val + j.val, by omega⟩ : Fin 16)) (fun c j => by simp [Nat.mul_comm])
    (fun t => ∑ r : Fin 24, f ⟨24 * t.val + r.val, by omega⟩)]

end Cert.LibTileSums

end
-- ==== Proof.KIValue.lean ====
/-
  The kernel's loss at the exact values. One grid point adds to cell (0,0) of its accumulator block the sum of the
  loss entries of its 24 rows (the tile's payload read at that cell; the block's rows are rows 24·t … 24·t + 23 of the
  argument arrays); a grid row of eight points therefore leaves the sum over its 192 rows, which is written back to
  cell (0,0) or (8,0) of the result array; the host operations add the two cells and scale. Regrouping the sum over
  all 384 rows into 2 grid rows of 8 tiles of 24 rows gives the constant times the sum of all loss entries.
-/
import proofs.«182194_j5634997093005_2_alg».proof.Proof.KILaunch
import proofs.«182194_j5634997093005_2_alg».proof.Proof.KIPieces
import proofs.«182194_j5634997093005_2_alg».proof.Proof.KIBlocks
import proofs.«182194_j5634997093005_2_alg».proof.Proof.TileValue
import proofs.«182194_j5634997093005_2_alg».proof.Proof.LibTileSums
import proofs.«182194_j5634997093005_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo Idealize.ShloMosaic.ValueIdx Cert.Spec Cert.KernelIdeal.TileValue

variable (m : (ℓ : Loc nD τ sig) → Buf (Elt Ideal) ℓ)

/-- An entry of the kernel's result array after the last grid point, as an extended real. -/
def outCell (c : Dev nD) (p : Fin 16) (q : Fin 128) : EReal := outArr m c (ix2 p q)

/-- The host operations after the region: the two grid rows' sums added and scaled. -/
theorem result_apply (c : Dev nD) (i : S_.Idx) :
    result m c i = lit 0x35B9EAF0#32 * (outCell m c 0 0 + outCell m c 8 0) := by
  unfold result outCell
  dsimp only [hostOps1]
  after_results
  rw [tailW_v0]
  have hk : (S1x1.rowMajor (ix2 (0 : Fin 1) (0 : Fin 1))).val = (S_.rowMajor i).val := by
    have h1 := (S1x1.rowMajor (ix2 (0 : Fin 1) (0 : Fin 1))).isLt
    have h2 := (S_.rowMajor i).isLt
    have e1 : S1x1.numel = 1 := by decide
    have e2 : S_.numel = 1 := by decide
    omega
  have ea : shapeCast S_ (extractStridedSlice S1x1 ![0, 0] (outArr m c) slices_S16x128_S1x1_0_0) shapeCasts_S1x1_S_ i = outArr m c (ix2 (0 : Fin 16) (0 : Fin 128)) := by
    rw [shapeCast_apply _ _ i (ix2 (0 : Fin 1) (0 : Fin 1)) hk,
      extractStridedSlice_apply ![0, 0] _ _ (ix2 (0 : Fin 1) (0 : Fin 1)) (ix2 (0 : Fin 16) (0 : Fin 128)) (fun a => by match a with | ⟨0, _⟩ => rfl | ⟨1, _⟩ => rfl)]
  have eb : shapeCast S_ (extractStridedSlice S1x1 ![8, 0] (outArr m c) slices_S16x128_S1x1_8_0) shapeCasts_S1x1_S_ i = outArr m c (ix2 (8 : Fin 16) (0 : Fin 128)) := by
    rw [shapeCast_apply _ _ i (ix2 (0 : Fin 1) (0 : Fin 1)) hk,
      extractStridedSlice_apply ![8, 0] _ _ (ix2 (0 : Fin 1) (0 : Fin 1)) (ix2 (8 : Fin 16) (0 : Fin 128)) (fun a => by match a with | ⟨0, _⟩ => rfl | ⟨1, _⟩ => rfl)]
  exact congrArg₂ (fun (u v : EReal) => lit 0x35B9EAF0#32 * (u + v)) ea eb

/-- The points' rows and the loss matrix of core `c`'s argument arrays. -/
def Xa (c : Dev nD) : Fin 384 → Fin 128 → EReal := fun b k => m ((c : Thread nD τ).loc main_arg0) (ix2 b k)
def Za (c : Dev nD) : Fin 384 → Fin 32 → EReal := fun b k => m ((c : Thread nD τ).loc main_arg1) (ix2 b k)
def Lm (c : Dev nD) (p a : Fin 384) : EReal :=
  loss (Spec.dist (Xa m c) (Xa m c)) (Spec.dist (Za m c) (Za m c)) p a

/-- The sum of the loss entries of the 24 rows of tile `n`. -/
def tsum (c : Dev nD) (n : Nat) : EReal :=
  if h : n < 16 then ∑ r : Fin 24, ∑ a : Fin 384, Lm m c ⟨24 * n + r.val, by omega⟩ a else 0

variable (hX : ∀ (c : Dev nD) i, ∃ r : ℝ, m ((c : Thread nD τ).loc main_arg0) i = (r : EReal))
  (hZ : ∀ (c : Dev nD) i, ∃ r : ℝ, m ((c : Thread nD τ).loc main_arg1) i = (r : EReal))

include hX hZ in
/-- One point: the accumulator's cell (0,0) gains the tile's loss sum. -/
theorem tilePay_cell (c : Dev nD) (t : Fin cfg0.N) (acc : Vec Ideal S8x128 .f32) :
    tilePay (iblk m c 0 t) (iblk m c 1 t) (iblk m c 2 t) (iblk m c 3 t) acc (ix2 (0 : Fin 8) (0 : Fin 128))
      = acc (ix2 (0 : Fin 8) (0 : Fin 128)) + tsum m c t.val := by
  have hN : t.val < 16 := lt_of_lt_of_eq t.isLt (show cfg0.N = 16 from N_0)
  have h0 : ∀ i, ∃ r : ℝ, iblk m c 0 t i = (r : EReal) := fun i => by unfold iblk; rw [View.read_apply]; exact hX c _
  have h1 : ∀ i, ∃ r : ℝ, iblk m c 1 t i = (r : EReal) := fun i => by unfold iblk; rw [View.read_apply]; exact hX c _
  have h2 : ∀ i, ∃ r : ℝ, iblk m c 2 t i = (r : EReal) := fun i => by unfold iblk; rw [View.read_apply]; exact hZ c _
  have h3 : ∀ i, ∃ r : ℝ, iblk m c 3 t i = (r : EReal) := fun i => by unfold iblk; rw [View.read_apply]; exact hZ c _
  show k0_pay1 (F := Ideal) _ _ _ acc _ = _
  rw [tile_value (iblk m c 0 t) (iblk m c 1 t) (iblk m c 2 t) (iblk m c 3 t) acc h0 h1 h2 h3 0 0, if_pos ⟨rfl, rfl⟩]
  unfold tsum
  rw [dif_pos hN]
  refine congrArg (_ + ·) (Finset.sum_congr rfl fun r _ => Finset.sum_congr rfl fun a _ => ?_)
  unfold Lm Xa Za
  simp only [iblk0_apply, iblk1_apply, iblk2_apply, iblk3_apply]
  rfl

include hX hZ in
/-- At a clearing point the cell is the tile's loss sum. -/
theorem cell_A (c : Dev nD) (t : Fin cfg0.N) (h0 : t.val % 8 = 0) :
    outsAt m c t.val t.isLt (ix2 (0 : Fin 8) (0 : Fin 128)) = tsum m c t.val := by
  rw [outsAt_A m c t h0, out_A, tilePay_cell m hX hZ c t, reset_value, zero_add]

include hX hZ in
/-- At an accumulating point it gains the tile's loss sum. -/
theorem cell_B (c : Dev nD) (t : Fin cfg0.N) (h0 : ¬t.val % 8 = 0) :
    outsAt m c t.val t.isLt (ix2 (0 : Fin 8) (0 : Fin 128))
      = outsAt m c (t.val - 1) (Nat.lt_of_le_of_lt (Nat.sub_le _ _) t.isLt) (ix2 (0 : Fin 8) (0 : Fin 128)) + tsum m c t.val := by
  rw [outsAt_B m c t h0, out_B, tilePay_cell m hX hZ c t]

include hX hZ in
/-- THE FOLD: after `j + 1` points of a grid row the cell holds the sum of their tiles' loss sums. -/
theorem cell_run (c : Dev nD) (q : Nat) : ∀ (j : Nat) (_ : j < 8) (h : 8 * q + j < cfg0.N),
    outsAt m c (8 * q + j) h (ix2 (0 : Fin 8) (0 : Fin 128)) = ∑ s ∈ Finset.range (j + 1), tsum m c (8 * q + s)
  | 0, _, h => by
    rw [Finset.sum_range_one]
    exact cell_A m hX hZ c ⟨8 * q + 0, h⟩ (by show (8 * q + 0) % 8 = 0; omega)
  | j + 1, hj, h => by
    have hB : ¬(⟨8 * q + (j + 1), h⟩ : Fin cfg0.N).val % 8 = 0 := by show ¬(8 * q + (j + 1)) % 8 = 0; omega
    have same : ∀ (u : Nat) (hu : u < cfg0.N), u = 8 * q + j → outsAt m c u hu = outsAt m c (8 * q + j) (Nat.lt_of_succ_lt h) :=
      fun u hu e => by subst e; rfl
    rw [Finset.sum_range_succ, ← cell_run c q j (Nat.lt_of_succ_lt hj) (Nat.lt_of_succ_lt h)]
    refine (cell_B m hX hZ c ⟨8 * q + (j + 1), h⟩ hB).trans ?_
    rw [same _ _ (by show 8 * q + (j + 1) - 1 = 8 * q + j; omega)]

include hX hZ in
/-- THE KERNEL'S LOSS: the constant times the sum of all loss entries. -/
theorem kernel_value (c : Dev nD) (i : S_.Idx) :
    result m c i = lit 0x35B9EAF0#32 * ∑ p : Fin 384, ∑ a : Fin 384, Lm m c p a := by
  have hN : cfg0.N = 16 := N_0
  rw [result_apply]
  unfold outCell
  rw [show outArr m c = (dats m 0 c).arrAt 4 cfg0.N from rfl, arr_cell0, arr_cell8]
  have e0 := cell_run m hX hZ c 0 7 (by omega) (by rw [hN]; omega)
  have e1 := cell_run m hX hZ c 1 7 (by omega) (by rw [hN]; omega)
  rw [show outsAt m c 7 _ = outsAt m c (8 * 0 + 7) (by rw [hN]; omega) from rfl, e0,
    show outsAt m c 15 _ = outsAt m c (8 * 1 + 7) (by rw [hN]; omega) from rfl, e1]
  congr 1
  rw [Cert.LibTileSums.sum_tiles (fun p => ∑ a : Fin 384, Lm m c p a), Fin.sum_univ_two, Finset.sum_range, Finset.sum_range]
  refine congrArg₂ (· + ·) (Finset.sum_congr rfl fun j _ => ?_) (Finset.sum_congr rfl fun j _ => ?_)
  · unfold tsum; rw [dif_pos (by have := j.isLt; omega)]; rfl
  · unfold tsum; rw [dif_pos (by have := j.isLt; omega)]; rfl

end Cert.KernelIdeal.Frame

end
-- ==== Proof.RefRead.lean ====
/-
  The reference program's result, read one host operation at a time at the exact values.
-/
import proofs.«182194_j5634997093005_2_alg».proof.Proof.Gen.ReferenceIdeal.Read
import proofs.«182194_j5634997093005_2_alg».proof.Proof.Spec
import proofs.«182194_j5634997093005_2_alg».proof.Proof.SpecLaws

noncomputable section

namespace Cert.ReferenceIdeal.RefValue

open Cert.Spec Cert.ReferenceIdeal Cert.ReferenceIdeal.Gen Cert.ReferenceIdeal.Read
open Idealize.ShloMosaic Idealize.ShloMosaic.ValueIdx

/-! ### The guarded distances

  Row sums of squares start from the zero word, the inner products go through the transposed operand, and both
  guards select on the same comparison bit, so each entry is the specification's distance of the three sums. -/

/-- The distance table of the high-dimensional points. -/
theorem dist_X (X : (⟨S384x128, .f32⟩ : BufTy).Contents (Elt Ideal)) (p b : Fin 384) :
    val_main_v20 (F := Ideal) X (ix2 p b)
      = Cert.Spec.dist (fun (p : Fin 384) (k : Fin 128) => X (ix2 p k)) (fun b k => X (ix2 b k)) p b := by
  have e1 : ∀ k, idx_main_v1 (idx_main_v2 (idx_main_v6 (ix2 p b))) k = ix2 p k := fun k =>
    funext fun a => Fin.ext (by match a with | ⟨0, _⟩ => rfl | ⟨1, _⟩ => rfl)
  have e2 : ∀ k, idx_main_v4 (idx_main_v5 (idx_main_v7 (ix2 p b))) k = ix2 b k := fun k =>
    funext fun a => Fin.ext (by match a with | ⟨0, _⟩ => rfl | ⟨1, _⟩ => rfl)
  have e3 : ∀ k, lidx_main_v10 (ix2 p b) k = ix2 p k := fun k =>
    funext fun a => Fin.ext (by match a with | ⟨0, _⟩ => rfl | ⟨1, _⟩ => rfl)
  have e4 : ∀ k, idx_main_v9 (ridx_main_v10 (ix2 p b) k) = ix2 b k := fun k =>
    funext fun a => Fin.ext (by match a with | ⟨0, _⟩ => rfl | ⟨1, _⟩ => rfl)
  simp only [val_main_v20_apply, val_main_v17_apply, val_main_v19_apply, val_main_v18_apply, val_main_v15_apply,
    val_main_v13_apply, val_main_v8_apply, val_main_v6_apply, val_main_v2_apply, val_main_v1_apply, val_main_v0_apply,
    val_main_v7_apply, val_main_v5_apply, val_main_v4_apply, val_main_v3_apply, val_main_v12_apply, val_main_v11_apply,
    val_main_v10_apply, val_main_v9_apply, val_main_v14_apply, val_main_v16_apply, val_main_call0_v1_apply,
    val_main_call0_v0_apply, val_main_call1_v1_apply, val_main_call1_v0_apply, val_main_cst_apply, val_main_cst_0_apply,
    val_main_cst_1_apply, val_main_cst_2_apply, val_main_cst_3_apply, val_main_cst_4_apply, val_main_cst_5_apply,
    e1, e2, e3, e4]
  simp only [Ideal.addf_def, Ideal.subf_def, Ideal.mulf_def, Ideal.maximumf_def, Ideal.cmpf_def, Ideal.ofBits_def,
    Ideal.hostUnary_sqrt_def, Cert.Spec.dist, dOf, Ideal.ofBits_zero_f32, zero_add]

/-- The distance table of the embedded points. -/
theorem dist_Z (Z : (⟨S384x32, .f32⟩ : BufTy).Contents (Elt Ideal)) (p b : Fin 384) :
    val_main_v41 (F := Ideal) Z (ix2 p b)
      = Cert.Spec.dist (fun (p : Fin 384) (k : Fin 32) => Z (ix2 p k)) (fun b k => Z (ix2 b k)) p b := by
  have e1 : ∀ k, idx_main_v22 (idx_main_v23 (idx_main_v27 (ix2 p b))) k = ix2 p k := fun k =>
    funext fun a => Fin.ext (by match a with | ⟨0, _⟩ => rfl | ⟨1, _⟩ => rfl)
  have e2 : ∀ k, idx_main_v25 (idx_main_v26 (idx_main_v28 (ix2 p b))) k = ix2 b k := fun k =>
    funext fun a => Fin.ext (by match a with | ⟨0, _⟩ => rfl | ⟨1, _⟩ => rfl)
  have e3 : ∀ k, lidx_main_v31 (ix2 p b) k = ix2 p k := fun k =>
    funext fun a => Fin.ext (by match a with | ⟨0, _⟩ => rfl | ⟨1, _⟩ => rfl)
  have e4 : ∀ k, idx_main_v30 (ridx_main_v31 (ix2 p b) k) = ix2 b k := fun k =>
    funext fun a => Fin.ext (by match a with | ⟨0, _⟩ => rfl | ⟨1, _⟩ => rfl)
  simp only [val_main_v41_apply, val_main_v38_apply, val_main_v40_apply, val_main_v39_apply, val_main_v36_apply,
    val_main_v34_apply, val_main_v29_apply, val_main_v27_apply, val_main_v23_apply, val_main_v22_apply, val_main_v21_apply,
    val_main_v28_apply, val_main_v26_apply, val_main_v25_apply, val_main_v24_apply, val_main_v33_apply, val_main_v32_apply,
    val_main_v31_apply, val_main_v30_apply, val_main_v35_apply, val_main_v37_apply, val_main_call2_v1_apply,
    val_main_call2_v0_apply, val_main_call3_v1_apply, val_main_call3_v0_apply, val_main_cst_6_apply, val_main_cst_7_apply,
    val_main_cst_8_apply, val_main_cst_9_apply, val_main_cst_10_apply, val_main_cst_11_apply, val_main_cst_12_apply,
    e1, e2, e3, e4]
  simp only [Ideal.addf_def, Ideal.subf_def, Ideal.mulf_def, Ideal.maximumf_def, Ideal.cmpf_def, Ideal.ofBits_def,
    Ideal.hostUnary_sqrt_def, Cert.Spec.dist, dOf, Ideal.ofBits_zero_f32, zero_add]

/-! ### The soft ranks

  The two broadcasts of a distance table to a cube read row `p` at the last and at the middle coordinate; the
  quotient by one half, negated, exponentiated, one added and inverted is the logistic function, and the sum over
  the last coordinate starts from the zero word. -/

/-- The soft ranks among the high-dimensional points. -/
theorem rank_X (X : (⟨S384x128, .f32⟩ : BufTy).Contents (Elt Ideal)) (p a : Fin 384) :
    val_main_v57 (F := Ideal) X (ix2 p a)
      = rank (Cert.Spec.dist (fun (p : Fin 384) (k : Fin 128) => X (ix2 p k)) (fun b k => X (ix2 b k))) p a := by
  have e1 : ∀ k, idx_main_v42 (idx_main_v44 (idx_main_v55 (ix2 p a) k)) = ix2 p k := fun k =>
    funext fun a => Fin.ext (by match a with | ⟨0, _⟩ => rfl | ⟨1, _⟩ => rfl)
  have e2 : ∀ k, idx_main_v43 (idx_main_v45 (idx_main_v55 (ix2 p a) k)) = ix2 p a := fun k =>
    funext fun a => Fin.ext (by match a with | ⟨0, _⟩ => rfl | ⟨1, _⟩ => rfl)
  simp only [val_main_v57_apply, val_main_v56_apply, val_main_v55_apply, val_main_v54_apply, val_main_v53_apply,
    val_main_v52_apply, val_main_v51_apply, val_main_v50_apply, val_main_v49_apply, val_main_v48_apply, val_main_v47_apply,
    val_main_v46_apply, val_main_v44_apply, val_main_v42_apply, val_main_v45_apply, val_main_v43_apply,
    val_main_cst_13_apply, val_main_cst_14_apply, val_main_cst_15_apply, val_main_cst_16_apply, val_main_cst_17_apply,
    e1, e2, dist_X]
  simp only [Ideal.addf_def, Ideal.subf_def, Ideal.hostDivf_def, Ideal.hostNegf_def, Ideal.negf_def,
    Ideal.hostUnary_exp_def, Ideal.ofBits_def, rank, Ideal.logistic, Ideal.ofBits_zero_f32, zero_add, Cert.Spec.lit_one]

/-- The soft ranks among the embedded points. -/
theorem rank_Z (Z : (⟨S384x32, .f32⟩ : BufTy).Contents (Elt Ideal)) (p a : Fin 384) :
    val_main_v76 (F := Ideal) Z (ix2 p a)
      = rank (Cert.Spec.dist (fun (p : Fin 384) (k : Fin 32) => Z (ix2 p k)) (fun b k => Z (ix2 b k))) p a := by
  have e1 : ∀ k, idx_main_v61 (idx_main_v63 (idx_main_v74 (ix2 p a) k)) = ix2 p k := fun k =>
    funext fun a => Fin.ext (by match a with | ⟨0, _⟩ => rfl | ⟨1, _⟩ => rfl)
  have e2 : ∀ k, idx_main_v62 (idx_main_v64 (idx_main_v74 (ix2 p a) k)) = ix2 p a := fun k =>
    funext fun a => Fin.ext (by match a with | ⟨0, _⟩ => rfl | ⟨1, _⟩ => rfl)
  simp only [val_main_v76_apply, val_main_v75_apply, val_main_v74_apply, val_main_v73_apply, val_main_v72_apply,
    val_main_v71_apply, val_main_v70_apply, val_main_v69_apply, val_main_v68_apply, val_main_v67_apply, val_main_v66_apply,
    val_main_v65_apply, val_main_v63_apply, val_main_v61_apply, val_main_v64_apply, val_main_v62_apply,
    val_main_cst_19_apply, val_main_cst_20_apply, val_main_cst_21_apply, val_main_cst_22_apply, val_main_cst_23_apply,
    e1, e2, dist_Z]
  simp only [Ideal.addf_def, Ideal.subf_def, Ideal.hostDivf_def, Ideal.hostNegf_def, Ideal.negf_def,
    Ideal.hostUnary_exp_def, Ideal.ofBits_def, rank, Ideal.logistic, Ideal.ofBits_zero_f32, zero_add, Cert.Spec.lit_one]

/-! ### The loss entries and their total -/

/-- One entry of the loss matrix: the rectified excess rank times one minus the clipped weight. -/
theorem loss_entry (X : (⟨S384x128, .f32⟩ : BufTy).Contents (Elt Ideal))
    (Z : (⟨S384x32, .f32⟩ : BufTy).Contents (Elt Ideal)) (p a : Fin 384) :
    val_main_v84 (F := Ideal) X Z (ix2 p a)
      = loss (Cert.Spec.dist (fun (p : Fin 384) (k : Fin 128) => X (ix2 p k)) (fun b k => X (ix2 b k)))
             (Cert.Spec.dist (fun (p : Fin 384) (k : Fin 32) => Z (ix2 p k)) (fun b k => Z (ix2 b k))) p a := by
  simp only [val_main_v84_apply, val_main_v60_apply, val_main_v59_apply, val_main_v58_apply, val_main_call4_v0_apply,
    val_main_call4_cst_apply, val_main_v83_apply, val_main_v82_apply, val_main_v81_apply, val_main_call5_v4_apply,
    val_main_call5_v3_apply, val_main_call5_v2_apply, val_main_call5_v1_apply, val_main_call5_v0_apply,
    val_main_v80_apply, val_main_v79_apply, val_main_v78_apply, val_main_v77_apply, val_main_cst_18_apply,
    val_main_cst_24_apply, val_main_cst_25_apply, val_main_cst_26_apply, val_main_cst_27_apply, val_main_cst_28_apply,
    rank_X, rank_Z]
  simp only [Ideal.mulf_def, Ideal.subf_def, Ideal.maximumf_def, Ideal.minimumf_def, Ideal.hostDivf_def,
    Ideal.ofBits_def, loss, intrusion, weight]

/-- The reference's result: the printed constant times the sum of all loss entries. -/
theorem ref_value (X : (⟨S384x128, .f32⟩ : BufTy).Contents (Elt Ideal))
    (Z : (⟨S384x32, .f32⟩ : BufTy).Contents (Elt Ideal)) (i : S_.Idx) :
    val_main_v86 (F := Ideal) X Z i
      = lit 0x35B9EAF0#32 * ∑ p : Fin 384, ∑ a : Fin 384,
          loss (Cert.Spec.dist (fun (p : Fin 384) (k : Fin 128) => X (ix2 p k)) (fun b k => X (ix2 b k)))
               (Cert.Spec.dist (fun (p : Fin 384) (k : Fin 32) => Z (ix2 p k)) (fun b k => Z (ix2 b k))) p a := by
  rw [val_main_v86_apply, val_main_v85_apply, val_main_cst_30_apply, val_main_cst_29_apply, sum_idx2]
  simp only [loss_entry, Ideal.mulf_def, Ideal.ofBits_def, Ideal.ofBits_zero_f32, zero_add]

end Cert.ReferenceIdeal.RefValue

end
-- ==== Proof.FiniteInputs.lean ====
/-
  The precondition read back: when the printed finiteness predicate answers 1, every entry of both inputs is a real
  number. The predicate is  all(|x0| < +∞) ∧ all(|x1| < +∞); each "all" is a reduction by "and" from 1 into a result
  of one index, so its value 1 says every compared entry answered 1, and an extended real whose absolute value lies
  below +∞ is neither infinity.
-/
import proofs.«182194_j5634997093005_2_alg».proof.Pre_finite_inputs
import Idealize.ShloMosaic.PureOps.Ideal
import Idealize.ShloMosaic.Lib.ReduceAll
import Idealize.ShloMosaic.Lib.ValueIdx

noncomputable section

namespace Cert.FiniteInputs

open Idealize.ShloMosaic Cert.Pre_finite_inputs

/-- The scalar shape has one index. -/
instance : Subsingleton S_.Idx := ⟨fun a b => funext fun d => d.elim0⟩

/-- The f32 word 0x7F800000 is +∞. -/
theorem inf_word : Ideal.ofBits .f32 0x7F800000#32 = ⊤ := by simp [Ideal.ofBits, Ideal.ieee]

/-- An extended real whose absolute value compares below the f32 word +∞ is a real number. -/
theorem real_of_abs_lt_inf (x : EReal)
    (h : Ideal.cmp .olt (max x (-x)) (Ideal.ofBits .f32 0x7F800000#32) = 1#1) : ∃ r : ℝ, x = (r : EReal) := by
  rw [inf_word] at h
  induction x with
  | bot => exact absurd h (by simp [Ideal.cmp])
  | top => exact absurd h (by simp [Ideal.cmp])
  | coe r => exact ⟨r, rfl⟩

theorem finite_of_pre [Cert.Pre_finite_inputs.Facts]
    (x0 : (⟨S384x128, .f32⟩ : BufTy).Contents (Elt Ideal)) (x1 : (⟨S384x32, .f32⟩ : BufTy).Contents (Elt Ideal))
    (h : Cert.Pre_finite_inputs.fn (F := Ideal) x0 x1 = fun _ => 1#1) :
    (∀ i, ∃ r : ℝ, x0 i = (r : EReal)) ∧ (∀ i, ∃ r : ℝ, x1 i = (r : EReal)) := by
  have e := congrFun h ValueIdx.ix0
  unfold Cert.Pre_finite_inputs.fn at e
  dsimp only at e
  obtain ⟨e0, e1⟩ := IntOp.andi_eq_one.1 e
  refine ⟨fun i => ?_, fun i => ?_⟩
  · have hi := Host.reduce_andi_all _ _ _ _ _ e0 i
    exact real_of_abs_lt_inf (x0 i) hi
  · have hi := Host.reduce_andi_all _ _ _ _ _ e1 i
    exact real_of_abs_lt_inf (x1 i) hi

end Cert.FiniteInputs

end
-- ==== Proof.lean ====
/-
  The certificate of the trustworthiness-loss kernel against its reference.

  Both programs compute, for points X (384 rows of 128) and their embeddings Z (384 rows of 32), a fixed constant times
  the sum over all pairs (i, a) of  intrusion_X(i, a) · (1 − weight_Z(i, a)),  where both factors are functions of the
  soft rank  1 + Σ_b σ((D(i,b) − D(i,a)) / ½)  of point a among the neighbours of i under the guarded Euclidean
  distance D (Proof/Spec.lean). The kernel walks the rows in 16 tiles of 24 on a 2 × 8 grid, doubles the distances
  before subtracting where the reference halves the difference afterwards (equal on real distances, which finite inputs
  give), sums the neighbours in three chunks of 128, and accumulates each grid row's tiles into one cell of its result
  array; the host then adds the two cells and scales. The reference forms the full 384 × 384 × 384 table and sums once.
  Over the extended reals the two are one number because finite sums may be regrouped freely.

  Frames: each kernel program's run is the pipeline launch with the two argument arrays dealt half and half to the
  two windows that read each (Proof/KLaunch.lean, Proof/KILaunch.lean); the reference's run is its operations in order.
  The idealization rewrote nothing, so `preserves` has no conjunct.
-/
import proofs.«182194_j5634997093005_2_alg».proof.Defs
import proofs.«182194_j5634997093005_2_alg».proof.Proof.KLaunch
import proofs.«182194_j5634997093005_2_alg».proof.Proof.KILaunch
import proofs.«182194_j5634997093005_2_alg».proof.Proof.KIValue
import proofs.«182194_j5634997093005_2_alg».proof.Proof.RefRead
import proofs.«182194_j5634997093005_2_alg».proof.Proof.FiniteInputs
import proofs.«182194_j5634997093005_2_alg».proof.Proof.Gen.Kernel
import proofs.«182194_j5634997093005_2_alg».proof.Proof.Gen.KernelIdeal
import proofs.«182194_j5634997093005_2_alg».proof.Proof.Gen.ReferenceIdeal
import proofs.«182194_j5634997093005_2_alg».proof.Proof.Gen.ReferenceIdeal.Run
import proofs.«182194_j5634997093005_2_alg».proof.Proof.Gen.Pre_finite_inputs
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ =>
  (θ_run Cert.Kernel.defs _ _).mono (fun _ h c => (h c).2) (Cert.Kernel.Frame.run_main (F := Bits) m ρ)

/-- So does its reading at the exact values. -/
theorem frame_ki : Cert.frame_KernelIdeal := fun m ρ _ =>
  (θ_run Cert.KernelIdeal.defs _ _).mono (fun _ h c => (h c).2) (Cert.KernelIdeal.Frame.run_main (F := Ideal) m ρ)

/-- The reference is a straight line of host operations. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs the kernel's loss and the reference's are the same extended real. -/
theorem algebraic : Cert.algebraic_KernelIdeal_ReferenceIdeal := by
  intro m ρ m' ρ' hpre hagree
  have hX : ∀ c i, ∃ r : ℝ, m ((c : Dev Cert.KernelIdeal.nD).tc.loc Cert.KernelIdeal.main_arg0) i = (r : EReal) :=
    fun c => (Cert.FiniteInputs.finite_of_pre _ _ (hpre c)).1
  have hZ : ∀ c i, ∃ r : ℝ, m ((c : Dev Cert.KernelIdeal.nD).tc.loc Cert.KernelIdeal.main_arg1) i = (r : EReal) :=
    fun c => (Cert.FiniteInputs.finite_of_pre _ _ (hpre c)).2
  refine ⟨fun c => Cert.KernelIdeal.Frame.result m c, Cert.KernelIdeal.Frame.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v86_eq, (hagree c).1, (hagree c).2]
  funext i
  rw [Cert.ReferenceIdeal.RefValue.ref_value]
  exact (Cert.KernelIdeal.Frame.kernel_value m hX hZ c i).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
